-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 83
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x1, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x1, .f32⟩
  | .hbm, ⟨75, _⟩ => ⟨S1700000x1, .f32⟩
  | .hbm, ⟨76, _⟩ => ⟨S1700000x1, .f32⟩
  | .hbm, ⟨77, _⟩ => ⟨S_, .f32⟩
  | .hbm, ⟨78, _⟩ => ⟨S100000x1, .f32⟩
  | .hbm, ⟨79, _⟩ => ⟨S1700000x1, .i32⟩
  | .hbm, ⟨80, _⟩ => ⟨S100000x1, .f32⟩
  | .hbm, ⟨81, _⟩ => ⟨S1x1, .f32⟩
  | .hbm, ⟨82, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x1, .f32⟩
  | .local _ .vmem, ⟨13, _⟩ => ⟨S10000x1, .f32⟩
  | .local _ .vmem, ⟨14, _⟩ => ⟨S10000x1, .f32⟩
  | .local _ .vmem, ⟨15, _⟩ => ⟨S10000x1, .f32⟩
  | .local _ .vmem, ⟨16, _⟩ => ⟨S10000x1, .f32⟩
  | .local _ .vmem, ⟨17, _⟩ => ⟨S1x1, .f32⟩
  | .local _ .vmem, ⟨18, _⟩ => ⟨S10000x1, .f32⟩
  | .local _ .vmem, ⟨19, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x1_S10000x1_1_0_0_1_n_n_wf : DotDims.WF S10000x64 S64x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x1.size a ≤ S100000x1.size a
  hwx3_0 : ∀ i : grid3.Coords, EltTy.bits .f32 = 32 ∨ (Rect.block (s := S100000x1) S10000x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x1, .f32⟩
  | .hbm, ⟨79, _⟩ => ⟨S1700000x1, .f32⟩
  | .hbm, ⟨80, _⟩ => ⟨S1700000x1, .f32⟩
  | .hbm, ⟨81, _⟩ => ⟨S_, .f32⟩
  | .hbm, ⟨82, _⟩ => ⟨S100000x1, .f32⟩
  | .hbm, ⟨83, _⟩ => ⟨S1700000x1, .i32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | .hbm, ⟨88, _⟩ => ⟨S100000x1, .f32⟩
  | .hbm, ⟨89, _⟩ => ⟨S100000x1, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S_, .f32⟩
  | .hbm, ⟨94, _⟩ => ⟨S100000x1, .f32⟩
  | .hbm, ⟨95, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.Glue.lean ====
/-
  The message passing between the dense steps, as the reference spells it: pure functions of the edge list and of a node
  array. An edge list is two rows of 1600000 node numbers; the self loops are every node once, appended to each row.
  The degree of a node counts the edges that end in it; an edge's weight is the product of the inverse square roots of its
  two endpoints' degrees (zero for a degree that is not positive); a layer's aggregation gathers the node array's rows at the
  edges' sources, scales each by its edge's weight, and adds it into the row of the edge's target. Both programs run these
  same operations on the host, around the dense steps; naming them once lets each program's host stretches be read as
  these functions of the buffers they find, and the two results be compared layer by layer.
-/
import proofs.«117024_j566935683372_1_alg».proof.Proof.Gen.ReferenceIdeal

noncomputable section

namespace Cert.Gcn.Glue

open Idealize.ShloMosaic Cert.ReferenceIdeal Cert.ReferenceIdeal.Gen

variable {F : FTy → Type} [FloatOps F]

/-- Every edge's source node, then every node once. -/
def sources (e : (⟨S2x1600000, .i32⟩ : BufTy).Contents (Elt F)) : (⟨S1700000, .i32⟩ : BufTy).Contents (Elt F) :=
  concatenate S1700000 0 [⟨S1600000, (shapeCast S1600000 (extractStridedSlice S1x1600000 ![0, 0] e slices_S2x1600000_S1x1600000_0_0) shapeCasts_S1x1600000_S1600000 : (⟨S1600000, .i32⟩ : BufTy).Contents (Elt F))⟩, ⟨S100000, (iotaInDim S100000 32 0 : (⟨S100000, .i32⟩ : BufTy).Contents (Elt F))⟩] concatenates_S1600000_S100000_S1700000_d0

/-- Every edge's target node, then every node once. -/
def targets (e : (⟨S2x1600000, .i32⟩ : BufTy).Contents (Elt F)) : (⟨S1700000, .i32⟩ : BufTy).Contents (Elt F) :=
  concatenate S1700000 0 [⟨S1600000, (shapeCast S1600000 (extractStridedSlice S1x1600000 ![1, 0] e slices_S2x1600000_S1x1600000_1_0) shapeCasts_S1x1600000_S1600000 : (⟨S1600000, .i32⟩ : BufTy).Contents (Elt F))⟩, ⟨S100000, (iotaInDim S100000 32 0 : (⟨S100000, .i32⟩ : BufTy).Contents (Elt F))⟩] concatenates_S1600000_S100000_S1700000_d0

/-- Node numbers as a column of gather indices, a negative number counted from the end. -/
def wrapped (ix : (⟨S1700000, .i32⟩ : BufTy).Contents (Elt F)) : (⟨S1700000x1, .i32⟩ : BufTy).Contents (Elt F) :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- Node numbers as a column of scatter indices. -/
def column (ix : (⟨S1700000, .i32⟩ : BufTy).Contents (Elt F)) : (⟨S1700000x1, .i32⟩ : BufTy).Contents (Elt F) :=
  broadcastInDim S1700000x1 ![0] bcast_S1700000_S1700000x1_0 ix

/-- A node's degree: one added per edge that ends in it. -/
def degree (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (column dst)
    (broadcastInDim S1700000 ![] bcast_S_S1700000 (constant S_ .f32 0x3F800000#32))

/-- Where a node's degree is positive. -/
def positive (dst : (⟨S1700000, .i32⟩ : BufTy).Contents (Elt F)) : (⟨S100000, .i1⟩ : BufTy).Contents (Elt F) :=
  cmpf .ogt (degree dst) (broadcastInDim S100000 ![] bcast_S_S100000 (constant S_ .f32 0x00000000#32))

/-- The inverse square root of every degree. -/
def rsqrtDegree (dst : (⟨S1700000, .i32⟩ : BufTy).Contents (Elt F)) : (⟨S100000, .f32⟩ : BufTy).Contents (Elt F) :=
  Host.rsqrt (degree dst)

/-- The scalar zero. -/
def zeroScalar : (⟨S_, .f32⟩ : BufTy).Contents (Elt F) := (constant S_ .f32 0x00000000#32)

/-- `r` where `p` holds, the scalar `z` elsewhere. -/
def pick (p : (⟨S100000, .i1⟩ : BufTy).Contents (Elt F)) (r : (⟨S100000, .f32⟩ : BufTy).Contents (Elt F)) (z : (⟨S_, .f32⟩ : BufTy).Contents (Elt F)) : (⟨S100000, .f32⟩ : BufTy).Contents (Elt F) :=
  select p r (broadcastInDim S100000 ![] bcast_S_S100000 (id z))

/-- The inverse square root of a positive degree, zero otherwise. -/
def invSqrtDegree (dst : (⟨S1700000, .i32⟩ : BufTy).Contents (Elt F)) : (⟨S100000, .f32⟩ : BufTy).Contents (Elt F) :=
  pick (positive dst) (rsqrtDegree dst) zeroScalar

/-- Every edge's weight from a per-node factor: the product of the factor at its two endpoints. -/
def weights (d : (⟨S100000, .f32⟩ : BufTy).Contents (Elt F)) (src dst : (⟨S1700000, .i32⟩ : BufTy).Contents (Elt F)) : (⟨S1700000, .f32⟩ : BufTy).Contents (Elt F) :=
  mulf (Host.gather gather_S100000_S1700000x1_S1700000_n_0_n_n_0_1_1 d (wrapped src))
    (Host.gather gather_S100000_S1700000x1_S1700000_n_0_n_n_0_1_1 d (wrapped dst))

/-- An edge's weight: the product of its endpoints' inverse square root degrees. -/
def edgeWeight (src dst : (⟨S1700000, .i32⟩ : BufTy).Contents (Elt F)) : (⟨S1700000, .f32⟩ : BufTy).Contents (Elt F) :=
  weights (invSqrtDegree dst) src dst

/-- The first layer's aggregation of a 64-wide node array. -/
def aggregate64 (h : (⟨S100000x64, .f32⟩ : BufTy).Contents (Elt F)) (src dst : (⟨S1700000, .i32⟩ : BufTy).Contents (Elt F)) (w : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (column dst)
    (mulf (Host.gather gather_S100000x64_S1700000x1_S1700000x64_1_0_n_n_0_1_164 h (wrapped src))
      (broadcastInDim S1700000x64 ![0, 1] bcast_S1700000x1_S1700000x64_0_1 (broadcastInDim S1700000x1 ![0] bcast_S1700000_S1700000x1_0 w)))

/-- The second layer's aggregation of a 1-wide node array. -/
def aggregate1 (h : (⟨S100000x1, .f32⟩ : BufTy).Contents (Elt F)) (src dst : (⟨S1700000, .i32⟩ : BufTy).Contents (Elt F)) (w : (⟨S1700000, .f32⟩ : BufTy).Contents (Elt F)) : (⟨S100000x1, .f32⟩ : BufTy).Contents (Elt F) :=
  Host.scatterAdd scatter_S100000x1_S1700000x1_S1700000x1_1_0_0_1 (broadcastInDim S100000x1 ![] bcast_S_S100000x1 (constant S_ .f32 0x00000000#32)) (column dst)
    (mulf (Host.gather gather_S100000x1_S1700000x1_S1700000x1_1_0_n_n_0_1_11 h (wrapped src))
      (broadcastInDim S1700000x1 ![0] bcast_S1700000_S1700000x1_0 w))

end Cert.Gcn.Glue

end
-- ==== Proof.DotSums.lean ====
/-
  A matrix product read at an entry. Each of the four products of this certificate — the two row-block products the kernels
  compute (a block of 10000 rows of the features against the whole weight matrix) and the two whole products the reference
  computes — contracts ONE axis, so at output entry (p, q) its contraction sum is the sum over k of the left operand's
  entry (p, k) times the right operand's entry (k, q). Stated per product over its own index types, with the two operand
  indices written out as functions of the output index and k.
-/
import proofs.«117024_j566935683372_1_alg».proof.Proof.Gen.KernelIdeal
import proofs.«117024_j566935683372_1_alg».proof.Proof.Gen.ReferenceIdeal
import Idealize.ShloMosaic.Lib.ValueIdx
import Idealize.ShloMosaic.PureOps.Ideal.Laws

noncomputable section

open Idealize.ShloMosaic

namespace Cert.Gcn

/-! ### `Cert.KernelIdeal.dot_S10000x128_S128x64_S10000x64_1_0_0_1_n_n`: rows of the left operand against columns of the right, 128 terms -/

theorem kb1_lhs0 (i : Cert.KernelIdeal.S10000x64.Idx) (q : Cert.KernelIdeal.dot_S10000x128_S128x64_S10000x64_1_0_0_1_n_n.contr.Idx) : (Cert.KernelIdeal.dot_S10000x128_S128x64_S10000x64_1_0_0_1_n_n.lhsIdx i q 0).val = (i 0).val := by
  unfold DotDims.lhsIdx
  rw [dif_neg (show ¬(0 : Fin Cert.KernelIdeal.S10000x128.rank) ∈ Cert.KernelIdeal.dot_S10000x128_S128x64_S10000x64_1_0_0_1_n_n.lhsBatch by decide), dif_pos (show (0 : Fin Cert.KernelIdeal.S10000x128.rank) ∈ Cert.KernelIdeal.dot_S10000x128_S128x64_S10000x64_1_0_0_1_n_n.lhsNonContracting by decide)]
  rfl
theorem kb1_lhs1 (i : Cert.KernelIdeal.S10000x64.Idx) (q : Cert.KernelIdeal.dot_S10000x128_S128x64_S10000x64_1_0_0_1_n_n.contr.Idx) : (Cert.KernelIdeal.dot_S10000x128_S128x64_S10000x64_1_0_0_1_n_n.lhsIdx i q 1).val = (q ⟨0, by decide⟩).val :=
  Cert.KernelIdeal.dot_S10000x128_S128x64_S10000x64_1_0_0_1_n_n.lhsIdx_val_of_single rfl i q
theorem kb1_rhs0 (i : Cert.KernelIdeal.S10000x64.Idx) (q : Cert.KernelIdeal.dot_S10000x128_S128x64_S10000x64_1_0_0_1_n_n.contr.Idx) : (Cert.KernelIdeal.dot_S10000x128_S128x64_S10000x64_1_0_0_1_n_n.rhsIdx i q 0).val = (q ⟨0, by decide⟩).val :=
  Cert.KernelIdeal.dot_S10000x128_S128x64_S10000x64_1_0_0_1_n_n.rhsIdx_val_of_single rfl i q
theorem kb1_rhs1 (i : Cert.KernelIdeal.S10000x64.Idx) (q : Cert.KernelIdeal.dot_S10000x128_S128x64_S10000x64_1_0_0_1_n_n.contr.Idx) : (Cert.KernelIdeal.dot_S10000x128_S128x64_S10000x64_1_0_0_1_n_n.rhsIdx i q 1).val = (i 1).val := by
  unfold DotDims.rhsIdx
  rw [dif_neg (show ¬(1 : Fin Cert.KernelIdeal.S128x64.rank) ∈ Cert.KernelIdeal.dot_S10000x128_S128x64_S10000x64_1_0_0_1_n_n.rhsBatch by decide), dif_pos (show (1 : Fin Cert.KernelIdeal.S128x64.rank) ∈ Cert.KernelIdeal.dot_S10000x128_S128x64_S10000x64_1_0_0_1_n_n.rhsNonContracting by decide)]
  rfl
/-- Row `i 0` of the left operand, at column `k`. -/
abbrev kb1_l (i : Cert.KernelIdeal.S10000x64.Idx) (k : Fin 128) : Cert.KernelIdeal.S10000x128.Idx := fun a => match a with
  | ⟨0, _⟩ => ⟨(i 0).val, (i 0).isLt⟩
  | ⟨1, _⟩ => ⟨k.val, k.isLt⟩
/-- Column `i 1` of the right operand, at row `k`. -/
abbrev kb1_r (i : Cert.KernelIdeal.S10000x64.Idx) (k : Fin 128) : Cert.KernelIdeal.S128x64.Idx := fun a => match a with
  | ⟨0, _⟩ => ⟨k.val, k.isLt⟩
  | ⟨1, _⟩ => ⟨(i 1).val, (i 1).isLt⟩
/-- The contraction's sum over its one axis is the sum over `k < 128` of row entry times column entry. -/
theorem kb1_sum (l : Cert.KernelIdeal.S10000x128.Idx → EReal) (r : Cert.KernelIdeal.S128x64.Idx → EReal) (i : Cert.KernelIdeal.S10000x64.Idx) :
    ∑ q : Cert.KernelIdeal.dot_S10000x128_S128x64_S10000x64_1_0_0_1_n_n.contr.Idx, l (Cert.KernelIdeal.dot_S10000x128_S128x64_S10000x64_1_0_0_1_n_n.lhsIdx i q) * r (Cert.KernelIdeal.dot_S10000x128_S128x64_S10000x64_1_0_0_1_n_n.rhsIdx i q) = ∑ k : Fin 128, l (kb1_l i k) * r (kb1_r i k) := by
  rw [← Equiv.sum_comp (ValueIdx.contrEquiv1 Cert.KernelIdeal.dot_S10000x128_S128x64_S10000x64_1_0_0_1_n_n 128 rfl rfl).symm]
  refine Finset.sum_congr rfl fun k _ => ?_
  have hk := ValueIdx.contrEquiv1_symm_val Cert.KernelIdeal.dot_S10000x128_S128x64_S10000x64_1_0_0_1_n_n 128 rfl rfl k
  have el : Cert.KernelIdeal.dot_S10000x128_S128x64_S10000x64_1_0_0_1_n_n.lhsIdx i ((ValueIdx.contrEquiv1 Cert.KernelIdeal.dot_S10000x128_S128x64_S10000x64_1_0_0_1_n_n 128 rfl rfl).symm k) = kb1_l i k := funext fun a => Fin.ext (by
    match a with
    | ⟨0, _⟩ => exact kb1_lhs0 _ _
    | ⟨1, _⟩ => exact (kb1_lhs1 _ _).trans hk)
  have er : Cert.KernelIdeal.dot_S10000x128_S128x64_S10000x64_1_0_0_1_n_n.rhsIdx i ((ValueIdx.contrEquiv1 Cert.KernelIdeal.dot_S10000x128_S128x64_S10000x64_1_0_0_1_n_n 128 rfl rfl).symm k) = kb1_r i k := funext fun a => Fin.ext (by
    match a with
    | ⟨0, _⟩ => exact (kb1_rhs0 _ _).trans hk
    | ⟨1, _⟩ => exact kb1_rhs1 _ _)
  rw [el, er]

/-! ### `Cert.KernelIdeal.dot_S10000x64_S64x1_S10000x1_1_0_0_1_n_n`: rows of the left operand against columns of the right, 64 terms -/

theorem kb2_lhs0 (i : Cert.KernelIdeal.S10000x1.Idx) (q : Cert.KernelIdeal.dot_S10000x64_S64x1_S10000x1_1_0_0_1_n_n.contr.Idx) : (Cert.KernelIdeal.dot_S10000x64_S64x1_S10000x1_1_0_0_1_n_n.lhsIdx i q 0).val = (i 0).val := by
  unfold DotDims.lhsIdx
  rw [dif_neg (show ¬(0 : Fin Cert.KernelIdeal.S10000x64.rank) ∈ Cert.KernelIdeal.dot_S10000x64_S64x1_S10000x1_1_0_0_1_n_n.lhsBatch by decide), dif_pos (show (0 : Fin Cert.KernelIdeal.S10000x64.rank) ∈ Cert.KernelIdeal.dot_S10000x64_S64x1_S10000x1_1_0_0_1_n_n.lhsNonContracting by decide)]
  rfl
theorem kb2_lhs1 (i : Cert.KernelIdeal.S10000x1.Idx) (q : Cert.KernelIdeal.dot_S10000x64_S64x1_S10000x1_1_0_0_1_n_n.contr.Idx) : (Cert.KernelIdeal.dot_S10000x64_S64x1_S10000x1_1_0_0_1_n_n.lhsIdx i q 1).val = (q ⟨0, by decide⟩).val :=
  Cert.KernelIdeal.dot_S10000x64_S64x1_S10000x1_1_0_0_1_n_n.lhsIdx_val_of_single rfl i q
theorem kb2_rhs0 (i : Cert.KernelIdeal.S10000x1.Idx) (q : Cert.KernelIdeal.dot_S10000x64_S64x1_S10000x1_1_0_0_1_n_n.contr.Idx) : (Cert.KernelIdeal.dot_S10000x64_S64x1_S10000x1_1_0_0_1_n_n.rhsIdx i q 0).val = (q ⟨0, by decide⟩).val :=
  Cert.KernelIdeal.dot_S10000x64_S64x1_S10000x1_1_0_0_1_n_n.rhsIdx_val_of_single rfl i q
theorem kb2_rhs1 (i : Cert.KernelIdeal.S10000x1.Idx) (q : Cert.KernelIdeal.dot_S10000x64_S64x1_S10000x1_1_0_0_1_n_n.contr.Idx) : (Cert.KernelIdeal.dot_S10000x64_S64x1_S10000x1_1_0_0_1_n_n.rhsIdx i q 1).val = (i 1).val := by
  unfold DotDims.rhsIdx
  rw [dif_neg (show ¬(1 : Fin Cert.KernelIdeal.S64x1.rank) ∈ Cert.KernelIdeal.dot_S10000x64_S64x1_S10000x1_1_0_0_1_n_n.rhsBatch by decide), dif_pos (show (1 : Fin Cert.KernelIdeal.S64x1.rank) ∈ Cert.KernelIdeal.dot_S10000x64_S64x1_S10000x1_1_0_0_1_n_n.rhsNonContracting by decide)]
  rfl
/-- Row `i 0` of the left operand, at column `k`. -/
abbrev kb2_l (i : Cert.KernelIdeal.S10000x1.Idx) (k : Fin 64) : Cert.KernelIdeal.S10000x64.Idx := fun a => match a with
  | ⟨0, _⟩ => ⟨(i 0).val, (i 0).isLt⟩
  | ⟨1, _⟩ => ⟨k.val, k.isLt⟩
/-- Column `i 1` of the right operand, at row `k`. -/
abbrev kb2_r (i : Cert.KernelIdeal.S10000x1.Idx) (k : Fin 64) : Cert.KernelIdeal.S64x1.Idx := fun a => match a with
  | ⟨0, _⟩ => ⟨k.val, k.isLt⟩
  | ⟨1, _⟩ => ⟨(i 1).val, (i 1).isLt⟩
/-- The contraction's sum over its one axis is the sum over `k < 64` of row entry times column entry. -/
theorem kb2_sum (l : Cert.KernelIdeal.S10000x64.Idx → EReal) (r : Cert.KernelIdeal.S64x1.Idx → EReal) (i : Cert.KernelIdeal.S10000x1.Idx) :
    ∑ q : Cert.KernelIdeal.dot_S10000x64_S64x1_S10000x1_1_0_0_1_n_n.contr.Idx, l (Cert.KernelIdeal.dot_S10000x64_S64x1_S10000x1_1_0_0_1_n_n.lhsIdx i q) * r (Cert.KernelIdeal.dot_S10000x64_S64x1_S10000x1_1_0_0_1_n_n.rhsIdx i q) = ∑ k : Fin 64, l (kb2_l i k) * r (kb2_r i k) := by
  rw [← Equiv.sum_comp (ValueIdx.contrEquiv1 Cert.KernelIdeal.dot_S10000x64_S64x1_S10000x1_1_0_0_1_n_n 64 rfl rfl).symm]
  refine Finset.sum_congr rfl fun k _ => ?_
  have hk := ValueIdx.contrEquiv1_symm_val Cert.KernelIdeal.dot_S10000x64_S64x1_S10000x1_1_0_0_1_n_n 64 rfl rfl k
  have el : Cert.KernelIdeal.dot_S10000x64_S64x1_S10000x1_1_0_0_1_n_n.lhsIdx i ((ValueIdx.contrEquiv1 Cert.KernelIdeal.dot_S10000x64_S64x1_S10000x1_1_0_0_1_n_n 64 rfl rfl).symm k) = kb2_l i k := funext fun a => Fin.ext (by
    match a with
    | ⟨0, _⟩ => exact kb2_lhs0 _ _
    | ⟨1, _⟩ => exact (kb2_lhs1 _ _).trans hk)
  have er : Cert.KernelIdeal.dot_S10000x64_S64x1_S10000x1_1_0_0_1_n_n.rhsIdx i ((ValueIdx.contrEquiv1 Cert.KernelIdeal.dot_S10000x64_S64x1_S10000x1_1_0_0_1_n_n 64 rfl rfl).symm k) = kb2_r i k := funext fun a => Fin.ext (by
    match a with
    | ⟨0, _⟩ => exact (kb2_rhs0 _ _).trans hk
    | ⟨1, _⟩ => exact kb2_rhs1 _ _)
  rw [el, er]

/-! ### `Cert.ReferenceIdeal.dot_S100000x128_S128x64_S100000x64_1_0_0_1_n_n`: rows of the left operand against columns of the right, 128 terms -/

theorem rw1_lhs0 (i : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem rw1_lhs1 (i : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem rw1_rhs0 (i : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem rw1_rhs1 (i : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl
/-- Row `i 0` of the left operand, at column `k`. -/
abbrev rw1_l (i : Cert.ReferenceIdeal.S100000x64.Idx) (k : Fin 128) : Cert.ReferenceIdeal.S100000x128.Idx := fun a => match a with
  | ⟨0, _⟩ => ⟨(i 0).val, (i 0).isLt⟩
  | ⟨1, _⟩ => ⟨k.val, k.isLt⟩
/-- Column `i 1` of the right operand, at row `k`. -/
abbrev rw1_r (i : Cert.ReferenceIdeal.S100000x64.Idx) (k : Fin 128) : Cert.ReferenceIdeal.S128x64.Idx := fun a => match a with
  | ⟨0, _⟩ => ⟨k.val, k.isLt⟩
  | ⟨1, _⟩ => ⟨(i 1).val, (i 1).isLt⟩
/-- The contraction's sum over its one axis is the sum over `k < 128` of row entry times column entry. -/
theorem rw1_sum (l : Cert.ReferenceIdeal.S100000x128.Idx → EReal) (r : Cert.ReferenceIdeal.S128x64.Idx → EReal) (i : Cert.ReferenceIdeal.S100000x64.Idx) :
    ∑ q : Cert.ReferenceIdeal.dot_S100000x128_S128x64_S100000x64_1_0_0_1_n_n.contr.Idx, l (Cert.ReferenceIdeal.dot_S100000x128_S128x64_S100000x64_1_0_0_1_n_n.lhsIdx i q) * r (Cert.ReferenceIdeal.dot_S100000x128_S128x64_S100000x64_1_0_0_1_n_n.rhsIdx i q) = ∑ k : Fin 128, l (rw1_l i k) * r (rw1_r i k) := by
  rw [← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = rw1_l i k := funext fun a => Fin.ext (by
    match a with
    | ⟨0, _⟩ => exact rw1_lhs0 _ _
    | ⟨1, _⟩ => exact (rw1_lhs1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = rw1_r i k := funext fun a => Fin.ext (by
    match a with
    | ⟨0, _⟩ => exact (rw1_rhs0 _ _).trans hk
    | ⟨1, _⟩ => exact rw1_rhs1 _ _)
  rw [el, er]

/-! ### `Cert.ReferenceIdeal.dot_S100000x64_S64x1_S100000x1_1_0_0_1_n_n`: rows of the left operand against columns of the right, 64 terms -/

theorem rw2_lhs0 (i : Cert.ReferenceIdeal.S100000x1.Idx) (q : Cert.ReferenceIdeal.dot_S100000x64_S64x1_S100000x1_1_0_0_1_n_n.contr.Idx) : (Cert.ReferenceIdeal.dot_S100000x64_S64x1_S100000x1_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x1_S100000x1_1_0_0_1_n_n.lhsBatch by decide), dif_pos (show (0 : Fin Cert.ReferenceIdeal.S100000x64.rank) ∈ Cert.ReferenceIdeal.dot_S100000x64_S64x1_S100000x1_1_0_0_1_n_n.lhsNonContracting by decide)]
  rfl
theorem rw2_lhs1 (i : Cert.ReferenceIdeal.S100000x1.Idx) (q : Cert.ReferenceIdeal.dot_S100000x64_S64x1_S100000x1_1_0_0_1_n_n.contr.Idx) : (Cert.ReferenceIdeal.dot_S100000x64_S64x1_S100000x1_1_0_0_1_n_n.lhsIdx i q 1).val = (q ⟨0, by decide⟩).val :=
  Cert.ReferenceIdeal.dot_S100000x64_S64x1_S100000x1_1_0_0_1_n_n.lhsIdx_val_of_single rfl i q
theorem rw2_rhs0 (i : Cert.ReferenceIdeal.S100000x1.Idx) (q : Cert.ReferenceIdeal.dot_S100000x64_S64x1_S100000x1_1_0_0_1_n_n.contr.Idx) : (Cert.ReferenceIdeal.dot_S100000x64_S64x1_S100000x1_1_0_0_1_n_n.rhsIdx i q 0).val = (q ⟨0, by decide⟩).val :=
  Cert.ReferenceIdeal.dot_S100000x64_S64x1_S100000x1_1_0_0_1_n_n.rhsIdx_val_of_single rfl i q
theorem rw2_rhs1 (i : Cert.ReferenceIdeal.S100000x1.Idx) (q : Cert.ReferenceIdeal.dot_S100000x64_S64x1_S100000x1_1_0_0_1_n_n.contr.Idx) : (Cert.ReferenceIdeal.dot_S100000x64_S64x1_S100000x1_1_0_0_1_n_n.rhsIdx i q 1).val = (i 1).val := by
  unfold DotDims.rhsIdx
  rw [dif_neg (show ¬(1 : Fin Cert.ReferenceIdeal.S64x1.rank) ∈ Cert.ReferenceIdeal.dot_S100000x64_S64x1_S100000x1_1_0_0_1_n_n.rhsBatch by decide), dif_pos (show (1 : Fin Cert.ReferenceIdeal.S64x1.rank) ∈ Cert.ReferenceIdeal.dot_S100000x64_S64x1_S100000x1_1_0_0_1_n_n.rhsNonContracting by decide)]
  rfl
/-- Row `i 0` of the left operand, at column `k`. -/
abbrev rw2_l (i : Cert.ReferenceIdeal.S100000x1.Idx) (k : Fin 64) : Cert.ReferenceIdeal.S100000x64.Idx := fun a => match a with
  | ⟨0, _⟩ => ⟨(i 0).val, (i 0).isLt⟩
  | ⟨1, _⟩ => ⟨k.val, k.isLt⟩
/-- Column `i 1` of the right operand, at row `k`. -/
abbrev rw2_r (i : Cert.ReferenceIdeal.S100000x1.Idx) (k : Fin 64) : Cert.ReferenceIdeal.S64x1.Idx := fun a => match a with
  | ⟨0, _⟩ => ⟨k.val, k.isLt⟩
  | ⟨1, _⟩ => ⟨(i 1).val, (i 1).isLt⟩
/-- The contraction's sum over its one axis is the sum over `k < 64` of row entry times column entry. -/
theorem rw2_sum (l : Cert.ReferenceIdeal.S100000x64.Idx → EReal) (r : Cert.ReferenceIdeal.S64x1.Idx → EReal) (i : Cert.ReferenceIdeal.S100000x1.Idx) :
    ∑ q : Cert.ReferenceIdeal.dot_S100000x64_S64x1_S100000x1_1_0_0_1_n_n.contr.Idx, l (Cert.ReferenceIdeal.dot_S100000x64_S64x1_S100000x1_1_0_0_1_n_n.lhsIdx i q) * r (Cert.ReferenceIdeal.dot_S100000x64_S64x1_S100000x1_1_0_0_1_n_n.rhsIdx i q) = ∑ k : Fin 64, l (rw2_l i k) * r (rw2_r i k) := by
  rw [← Equiv.sum_comp (ValueIdx.contrEquiv1 Cert.ReferenceIdeal.dot_S100000x64_S64x1_S100000x1_1_0_0_1_n_n 64 rfl rfl).symm]
  refine Finset.sum_congr rfl fun k _ => ?_
  have hk := ValueIdx.contrEquiv1_symm_val Cert.ReferenceIdeal.dot_S100000x64_S64x1_S100000x1_1_0_0_1_n_n 64 rfl rfl k
  have el : Cert.ReferenceIdeal.dot_S100000x64_S64x1_S100000x1_1_0_0_1_n_n.lhsIdx i ((ValueIdx.contrEquiv1 Cert.ReferenceIdeal.dot_S100000x64_S64x1_S100000x1_1_0_0_1_n_n 64 rfl rfl).symm k) = rw2_l i k := funext fun a => Fin.ext (by
    match a with
    | ⟨0, _⟩ => exact rw2_lhs0 _ _
    | ⟨1, _⟩ => exact (rw2_lhs1 _ _).trans hk)
  have er : Cert.ReferenceIdeal.dot_S100000x64_S64x1_S100000x1_1_0_0_1_n_n.rhsIdx i ((ValueIdx.contrEquiv1 Cert.ReferenceIdeal.dot_S100000x64_S64x1_S100000x1_1_0_0_1_n_n 64 rfl rfl).symm k) = rw2_r i k := funext fun a => Fin.ext (by
    match a with
    | ⟨0, _⟩ => exact (rw2_rhs0 _ _).trans hk
    | ⟨1, _⟩ => exact rw2_rhs1 _ _)
  rw [el, er]

end Cert.Gcn

end
-- ==== Proof.Dense1.lean ====
/-
  The first dense layer's region: ten grid points, point t multiplying rows 10000·t … 10000·t + 9999 of the node features
  (bf16 casts are the identity on extended reals) by the whole 128×64 weight matrix into a zero accumulator, and writing
  the block back. After the region the output array is the whole product features × weights: an entry of a row block's
  product and the same entry of the whole product are one sum over the 128 feature columns.
-/
import proofs.«117024_j566935683372_1_alg».proof.Proof.Gen.KernelIdeal.Frame
import proofs.«117024_j566935683372_1_alg».proof.Proof.DotSums
import Idealize.ShloMosaic.Lib.Pipeline.Value

noncomputable section

open Idealize.ShloMosaic Idealize.ShloMosaic.TcCoe Idealize.SL.Sem
open Idealize.ShloMosaic.Pipeline (Dat)

namespace Cert.Gcn.Dense1

open Cert.KernelIdeal Cert.KernelIdeal.Gen

variable (V : (c : Dev nD) → (b : Ref sig .tc) → Buf (Elt Ideal) ((c : Thread nD τ).loc b))

theorem zeroOff : (![0, 0] : Fin 2 → Nat) = fun _ => 0 := funext fun a => by fin_cases a <;> rfl

/-- The whole product: every row of the 100000-row left array against the 128×64 right array. -/
abbrev whole (a : FVec Ideal S100000x128 .f32) (w : FVec Ideal S128x64 .f32) : FVec Ideal S100000x64 .f32 :=
  Host.dotGeneral Cert.ReferenceIdeal.dot_S100000x128_S128x64_S100000x64_1_0_0_1_n_n none a w

/-- An entry of the whole product is the sum over k of row entry times column entry. -/
theorem whole_apply (a : FVec Ideal S100000x128 .f32) (w : FVec Ideal S128x64 .f32) (i : S100000x64.Idx) :
    whole a w i = ∑ k : Fin 128, a (rw1_l i k) * w (rw1_r i k) := by
  unfold whole
  simp only [Host.dotGeneral]
  rw [Ideal.dotGeneral_apply]
  exact rw1_sum a w i

/-- An entry of what the body stores — the block product accumulated into zero, the bf16 casts the identity on extended
    reals — is the same sum over the block's row. -/
theorem body_apply (x0 : Vec Ideal S10000x128 .f32) (x1 : Vec Ideal S128x64 .f32) (j : S10000x64.Idx) :
    k0_pay1 x0 x1 j = ∑ k : Fin 128, x0 (kb1_l j k) * x1 (kb1_r j k) := by
  unfold k0_pay1
  simp only [matmul]
  rw [Ideal.matmul_constant_zero_apply]
  exact kb1_sum x0 x1 j

/-- Over the grid: the row-block window and the output window move together along the rows, the weight window stays. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every one of the ten row blocks is some point's. -/
theorem index_onto : ∀ (q0 : Fin 10), ∃ t : Fin cfg0.N, win0_2.index t = ![q0.val, 0] :=
  (by decide +kernel : ∀ (q0 : Fin 10), ∃ t : Fin grid0.N, win0_2.index t = ![q0.val, 0])

/-- What point `t` writes back is block `t` of the whole product of the two arrays as the region finds them: row
    `10000·t + p` of the product needs only row `10000·t + p` of the left array, which is row `p` of the block. -/
theorem flushed_eq (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero zeroOff]
  simp only [View.ld_unit_zero (S := S10000x128) zeroOff, View.ld_unit_zero (S := S128x64) zeroOff]
  obtain ⟨e0, e1, e2, e3, e4, e5⟩ := index_facts t
  funext j
  show k0_pay1 (iblk0 V c 0 t) (iblk0 V c 1 t) j = whole (V c main_arg0) (V c main_arg2) (((cfg0.win 2).blk t).view.emb j)
  rw [body_apply, whole_apply]
  refine Finset.sum_congr rfl fun k _ => ?_
  have h0 : iblk0 V c 0 t (kb1_l j k) = V c main_arg0 (rw1_l (((cfg0.win 2).blk t).view.emb j) k) := by
    show V c main_arg0 (((cfg0.win 0).blk t).view.emb (kb1_l j k)) = _
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : iblk0 V c 1 t (kb1_r j k) = V c main_arg2 (rw1_r (((cfg0.win 2).blk t).view.emb j) k) := by
    show V c main_arg2 (((cfg0.win 1).blk t).view.emb (kb1_r j k)) = _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten blocks of 10000 rows tile the 100000 rows: row `r` is in block `r / 10000`. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: the whole product of the two input arrays as the region finds them. -/
theorem final (c : Dev nD) : (dat0 V c).arrAt 2 cfg0.N = whole (V c main_arg0) (V c main_arg2) :=
  (dat0 V c).arrAt_eq_of_cover 2 (whole (V c main_arg0) (V c main_arg2)) (fun t _ => flushed_eq V c t) covered

end Cert.Gcn.Dense1

end
-- ==== Proof.Relu1.lean ====
/-
  The first layer's bias and activation region: ten grid points, point t adding the one bias row under rows
  10000·t … 10000·t + 9999 of the aggregated messages and taking the maximum with zero, entry by entry. After the region the
  output array is that step applied to the whole array: the step is entry by entry and every block adds the same bias row.
-/
import proofs.«117024_j566935683372_1_alg».proof.Proof.Gen.KernelIdeal.Frame
import proofs.«117024_j566935683372_1_alg».proof.Proof.Gen.ReferenceIdeal
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.Gcn.Relu1

open Cert.KernelIdeal Cert.KernelIdeal.Gen Idealize.ShloMosaic.ValueIdx

variable (V : (c : Dev nD) → (b : Ref sig .tc) → Buf (Elt Ideal) ((c : Thread nD τ).loc b))

theorem zeroOff : (![0, 0] : Fin 2 → Nat) = fun _ => 0 := funext fun a => by fin_cases a <;> rfl

/-- The bias row's entry over an array entry's column. -/
abbrev biasOver (i : S100000x64.Idx) : S1x64.Idx := fun a => match a with
  | ⟨0, _⟩ => ⟨0, Nat.zero_lt_one⟩
  | ⟨1, _⟩ => ⟨(i 1).val, (i 1).isLt⟩
/-- The bias row's entry over a block entry's column. -/
abbrev biasOverBlk (j : S10000x64.Idx) : S1x64.Idx := fun a => match a with
  | ⟨0, _⟩ => ⟨0, Nat.zero_lt_one⟩
  | ⟨1, _⟩ => ⟨(j 1).val, (j 1).isLt⟩

/-- The whole layer step: the bias row added under every row of the array, then the activation, entry by entry. -/
abbrev whole (a : FVec Ideal S100000x64 .f32) (b : FVec Ideal S1x64 .f32) : FVec Ideal S100000x64 .f32 :=
  maximumf (addf a (broadcastInDim S100000x64 ![0, 1] Cert.ReferenceIdeal.Gen.bcast_S1x64_S100000x64_0_1 b))
    (broadcastInDim S100000x64 ![] Cert.ReferenceIdeal.Gen.bcast_S_S100000x64 (constant (F := Ideal) S_ .f32 0x00000000#32))

/-- An entry of the whole step. -/
theorem whole_apply (a : FVec Ideal S100000x64 .f32) (b : FVec Ideal S1x64 .f32) (i : S100000x64.Idx) :
    whole a b i = max (a i + b (biasOver i)) (Ideal.ofBits .f32 0x00000000#32) := by
  unfold whole
  rw [maximumf_apply, addf_apply,
    broadcastInDim_apply ![0, 1] _ b i (biasOver i) (fun a => by match a with | ⟨0, _⟩ => (first | rfl | simp) | ⟨1, _⟩ => (first | rfl | simp)),
    broadcastInDim_apply ![] _ (constant (F := Ideal) S_ .f32 0x00000000#32) i (fun a => a.elim0) (fun a => a.elim0)]
  rfl

/-- An entry of what the body stores: the same step on the block, with the block's one bias row. -/
theorem body_apply (x0 : Vec Ideal S10000x64 .f32) (x1 : Vec Ideal S1x64 .f32) (j : S10000x64.Idx) :
    k1_pay1 x0 x1 j = max (x0 j + x1 (biasOverBlk j)) (Ideal.ofBits .f32 0x00000000#32) := by
  unfold k1_pay1
  simp only [shapeCast_self]
  rw [maximumf_apply, addf_apply, broadcastTo_apply x1 _ j (biasOverBlk j) (fun a => by match a with | ⟨0, _⟩ => (first | rfl | simp) | ⟨1, _⟩ => (first | rfl | simp))]
  rfl

/-- Over the grid: the input row-block window and the output window move together, the bias window stays. -/
theorem index_facts : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every one of the ten row blocks is some point's. -/
theorem index_onto : ∀ (q0 : Fin 10), ∃ t : Fin cfg1.N, win1_2.index t = ![q0.val, 0] :=
  (by decide +kernel : ∀ (q0 : Fin 10), ∃ t : Fin grid1.N, win1_2.index t = ![q0.val, 0])

/-- What point `t` writes back is block `t` of the whole step of the two arrays as the region finds them: the step is
    entry by entry, and the bias row is the same for every block. -/
theorem flushed_eq (c : Dev nD) (t : Fin cfg1.N) :
    (dat1 V c).flushed 2 t = ((cfg1.win 2).blk t).view.read (Elt Ideal) (whole (V c main_v43) (V c main_v44)) := by
  show (cfg1.win 2).cut (grid1.coords t) ((dat1 V c).after 2 t) = _
  rw [after1_2]
  unfold out1_2
  rw [View.canon_unit_zero zeroOff]
  simp only [View.ld_unit_zero (S := S10000x64) zeroOff, View.ld_unit_zero (S := S1x64) zeroOff]
  obtain ⟨e0, e1, e2, e3, e4, e5⟩ := index_facts t
  funext j
  show k1_pay1 (iblk1 V c 0 t) (iblk1 V c 1 t) j = whole (V c main_v43) (V c main_v44) (((cfg1.win 2).blk t).view.emb j)
  rw [body_apply, whole_apply]
  have h0 : iblk1 V c 0 t j = V c main_v43 (((cfg1.win 2).blk t).view.emb j) := by
    show V c main_v43 (((cfg1.win 0).blk t).view.emb j) = _
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : iblk1 V c 1 t (biasOverBlk j) = V c main_v44 (biasOver (((cfg1.win 2).blk t).view.emb j)) := by
    show V c main_v44 (((cfg1.win 1).blk t).view.emb (biasOverBlk j)) = _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]

/-- An index of the output array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- The ten blocks of 10000 rows tile the 100000 rows: row `r` is in block `r / 10000`. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region: the whole step of the two input arrays as the region finds them. -/
theorem final (c : Dev nD) : (dat1 V c).arrAt 2 cfg1.N = whole (V c main_v43) (V c main_v44) :=
  (dat1 V c).arrAt_eq_of_cover 2 (whole (V c main_v43) (V c main_v44)) (fun t _ => flushed_eq V c t) covered

end Cert.Gcn.Relu1

end
-- ==== Proof.Dense2.lean ====
/-
  The second dense layer's region: ten grid points, point t multiplying rows 10000·t … 10000·t + 9999 of the hidden
  activations (bf16 casts are the identity on extended reals) by the 64×1 weight column into a zero accumulator, and writing
  the block back. After the region the output array is the whole product activations × weights: an entry of a row block's
  product and the same entry of the whole product are one sum over the 64 hidden columns.
-/
import proofs.«117024_j566935683372_1_alg».proof.Proof.Gen.KernelIdeal.Frame
import proofs.«117024_j566935683372_1_alg».proof.Proof.DotSums
import Idealize.ShloMosaic.Lib.Pipeline.Value

noncomputable section

open Idealize.ShloMosaic Idealize.ShloMosaic.TcCoe Idealize.SL.Sem
open Idealize.ShloMosaic.Pipeline (Dat)

namespace Cert.Gcn.Dense2

open Cert.KernelIdeal Cert.KernelIdeal.Gen

variable (V : (c : Dev nD) → (b : Ref sig .tc) → Buf (Elt Ideal) ((c : Thread nD τ).loc b))

theorem zeroOff : (![0, 0] : Fin 2 → Nat) = fun _ => 0 := funext fun a => by fin_cases a <;> rfl

/-- The whole product: every row of the 100000-row left array against the 64×1 right array. -/
abbrev whole (a : FVec Ideal S100000x64 .f32) (w : FVec Ideal S64x1 .f32) : FVec Ideal S100000x1 .f32 :=
  Host.dotGeneral Cert.ReferenceIdeal.dot_S100000x64_S64x1_S100000x1_1_0_0_1_n_n none a w

/-- An entry of the whole product is the sum over k of row entry times column entry. -/
theorem whole_apply (a : FVec Ideal S100000x64 .f32) (w : FVec Ideal S64x1 .f32) (i : S100000x1.Idx) :
    whole a w i = ∑ k : Fin 64, a (rw2_l i k) * w (rw2_r i k) := by
  unfold whole
  simp only [Host.dotGeneral]
  rw [Ideal.dotGeneral_apply]
  exact rw2_sum a w i

/-- An entry of what the body stores — the block product accumulated into zero, the bf16 casts the identity on extended
    reals — is the same sum over the block's row. -/
theorem body_apply (x0 : Vec Ideal S10000x64 .f32) (x1 : Vec Ideal S64x1 .f32) (j : S10000x1.Idx) :
    k2_pay1 x0 x1 j = ∑ k : Fin 64, x0 (kb2_l j k) * x1 (kb2_r j k) := by
  unfold k2_pay1
  simp only [matmul, shapeCast_self]
  rw [Ideal.matmul_constant_zero_apply]
  exact kb2_sum x0 x1 j

/-- Over the grid: the row-block window and the output window move together along the rows, the weight window stays. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 9
    ∧ win2_2.index t (1 : Fin 2) = 0 :=
  (by decide +kernel : ∀ t : Fin grid2.N, _)

/-- Every one of the ten row blocks is some point's. -/
theorem index_onto : ∀ (q0 : Fin 10), ∃ t : Fin cfg2.N, win2_2.index t = ![q0.val, 0] :=
  (by decide +kernel : ∀ (q0 : Fin 10), ∃ t : Fin grid2.N, win2_2.index t = ![q0.val, 0])

/-- What point `t` writes back is block `t` of the whole product of the two arrays as the region finds them: row
    `10000·t + p` of the product needs only row `10000·t + p` of the left array, which is row `p` of the block. -/
theorem flushed_eq (c : Dev nD) (t : Fin cfg2.N) :
    (dat2 V c).flushed 2 t = ((cfg2.win 2).blk t).view.read (Elt Ideal) (whole (V c main_v45) (V c main_arg4)) := by
  show (cfg2.win 2).cut (grid2.coords t) ((dat2 V c).after 2 t) = _
  rw [after2_2]
  unfold out2_2
  rw [View.canon_unit_zero zeroOff]
  simp only [View.ld_unit_zero (S := S10000x64) zeroOff, View.ld_unit_zero (S := S64x1) zeroOff]
  obtain ⟨e0, e1, e2, e3, e4, e5⟩ := index_facts t
  funext j
  show k2_pay1 (iblk2 V c 0 t) (iblk2 V c 1 t) j = whole (V c main_v45) (V c main_arg4) (((cfg2.win 2).blk t).view.emb j)
  rw [body_apply, whole_apply]
  refine Finset.sum_congr rfl fun k _ => ?_
  have h0 : iblk2 V c 0 t (kb2_l j k) = V c main_v45 (rw2_l (((cfg2.win 2).blk t).view.emb j) k) := by
    show V c main_v45 (((cfg2.win 0).blk t).view.emb (kb2_l j k)) = _
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have h1 : iblk2 V c 1 t (kb2_r j k) = V c main_arg4 (rw2_r (((cfg2.win 2).blk t).view.emb j) k) := by
    show V c main_arg4 (((cfg2.win 1).blk t).view.emb (kb2_r j k)) = _
    refine congrArg _ (funext fun a => Fin.ext ?_)
    match a with
    | ⟨0, _⟩ => show win2_1.index t (0 : Fin 2) * 64 + 1 * k.val = k.val; omega
    | ⟨1, _⟩ => show win2_1.index t (1 : Fin 2) * 1 + 1 * (j 1).val = win2_2.index t (1 : Fin 2) * 1 + 1 * (j 1).val; omega
  rw [h0, h1]

/-- An index of the output array is in point `t`'s block iff each coordinate is in the block's range on its axis. -/
theorem mem_blk (t : Fin cfg2.N) (i : S100000x1.Idx) :
    i ∈ ((cfg2.win 2).blk t).view.set ↔ ∀ a : Fin 2, win2_2.index t a * S10000x1.size a ≤ (i a).val ∧ (i a).val < win2_2.index t a * S10000x1.size a + S10000x1.size a := by
  show i ∈ ((View.whole main_v46).slice (win2_2.rect t)).set ↔ _
  rw [View.set_slice_whole, Rect.mem_set_unit]
  exact Iff.rfl

/-- The ten blocks of 10000 rows tile the 100000 rows: row `r` is in block `r / 10000`. -/
theorem covered (i : S100000x1.Idx) : ∃ t : Fin cfg2.N, (cfg2.win 2).flush t = true ∧ i ∈ ((cfg2.win 2).blk t).view.set := by
  have hi0 : (i 0).val < 100000 := (i 0).isLt
  have hi1 : (i 1).val < 1 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 1 ≤ (i 1).val ∧ (i 1).val < win2_2.index t (1 : Fin 2) * 1 + 1; omega

/-- The output array after the region: the whole product of the two input arrays as the region finds them. -/
theorem final (c : Dev nD) : (dat2 V c).arrAt 2 cfg2.N = whole (V c main_v45) (V c main_arg4) :=
  (dat2 V c).arrAt_eq_of_cover 2 (whole (V c main_v45) (V c main_arg4)) (fun t _ => flushed_eq V c t) covered

end Cert.Gcn.Dense2

end
-- ==== Proof.Sigmoid2.lean ====
/-
  The second layer's bias and activation region: ten grid points, point t adding the one bias entry to rows
  10000·t … 10000·t + 9999 of the aggregated messages and taking the logistic function, entry by entry. On the extended reals
  the logistic function IS 1 / (1 + exp (−x)) with the ideal division, which is how the reference spells its sigmoid; so after
  the region the output array is the reference's bias-and-sigmoid step applied to the whole array.
-/
import proofs.«117024_j566935683372_1_alg».proof.Proof.Gen.KernelIdeal.Frame
import proofs.«117024_j566935683372_1_alg».proof.Proof.Gen.ReferenceIdeal
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.Gcn.Sigmoid2

open Cert.KernelIdeal Cert.KernelIdeal.Gen Idealize.ShloMosaic.ValueIdx

variable (V : (c : Dev nD) → (b : Ref sig .tc) → Buf (Elt Ideal) ((c : Thread nD τ).loc b))

theorem zeroOff : (![0, 0] : Fin 2 → Nat) = fun _ => 0 := funext fun a => by fin_cases a <;> rfl

/-- The pattern of `1.0` denotes the real one. -/
theorem ofBits_one : Ideal.ofBits .f32 0x3F800000#32 = 1 := by
  simp [Ideal.ofBits, Ideal.ieee, -EReal.coe_mul]; norm_num

/-- The bias row's entry over an array entry's column. -/
abbrev biasOver (i : S100000x1.Idx) : S1x1.Idx := fun a => match a with
  | ⟨0, _⟩ => ⟨0, Nat.zero_lt_one⟩
  | ⟨1, _⟩ => ⟨(i 1).val, (i 1).isLt⟩
/-- The bias row's entry over a block entry's column. -/
abbrev biasOverBlk (j : S10000x1.Idx) : S1x1.Idx := fun a => match a with
  | ⟨0, _⟩ => ⟨0, Nat.zero_lt_one⟩
  | ⟨1, _⟩ => ⟨(j 1).val, (j 1).isLt⟩

/-- The whole layer step: the bias row added under every row of the array, then the activation, entry by entry. -/
abbrev whole (a : FVec Ideal S100000x1 .f32) (b : FVec Ideal S1x1 .f32) : FVec Ideal S100000x1 .f32 :=
  Host.divf (broadcastInDim S100000x1 ![] Cert.ReferenceIdeal.Gen.bcast_S_S100000x1 (constant (F := Ideal) S_ .f32 0x3F800000#32))
    (addf (broadcastInDim S100000x1 ![] Cert.ReferenceIdeal.Gen.bcast_S_S100000x1 (constant (F := Ideal) S_ .f32 0x3F800000#32))
      (Host.exp (Host.negf (addf a (broadcastInDim S100000x1 ![0, 1] Cert.ReferenceIdeal.Gen.bcast_S1x1_S100000x1_0_1 b)))))

/-- An entry of the whole step. -/
theorem whole_apply (a : FVec Ideal S100000x1 .f32) (b : FVec Ideal S1x1 .f32) (i : S100000x1.Idx) :
    whole a b i = Ideal.logistic (a i + b (biasOver i)) := by
  unfold whole
  show Ideal.div (broadcastInDim S100000x1 ![] _ (constant (F := Ideal) S_ .f32 0x3F800000#32) i)
      (broadcastInDim S100000x1 ![] _ (constant (F := Ideal) S_ .f32 0x3F800000#32) i + Ideal.exp (-(a i + broadcastInDim S100000x1 ![0, 1] _ b i))) = _
  rw [broadcastInDim_apply ![0, 1] _ b i (biasOver i) (fun a => by match a with | ⟨0, _⟩ => (first | rfl | simp) | ⟨1, _⟩ => (have h : (i 1).val < 1 := (i 1).isLt; show (i 1).val = 0; omega)),
    broadcastInDim_apply ![] _ (constant (F := Ideal) S_ .f32 0x3F800000#32) i (fun a => a.elim0) (fun a => a.elim0),
    constant_apply, ofBits_one]
  rfl

/-- An entry of what the body stores: the same step on the block, with the block's one bias row. -/
theorem body_apply (x0 : Vec Ideal S10000x1 .f32) (x1 : Vec Ideal S1x1 .f32) (j : S10000x1.Idx) :
    k3_pay1 x0 x1 j = Ideal.logistic (x0 j + x1 (biasOverBlk j)) := by
  unfold k3_pay1
  simp only [shapeCast_self]
  show Ideal.logistic (x0 j + broadcastTo S10000x1 x1 _ j) = _
  rw [broadcastTo_apply x1 _ j (biasOverBlk j) (fun a => by match a with | ⟨0, _⟩ => (first | rfl | simp) | ⟨1, _⟩ => (have h : (j 1).val < 1 := (j 1).isLt; show (j 1).val = 0; omega))]

/-- Over the grid: the input row-block window and the output window move together, the bias window stays. -/
theorem index_facts : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Every one of the ten row blocks is some point's. -/
theorem index_onto : ∀ (q0 : Fin 10), ∃ t : Fin cfg3.N, win3_2.index t = ![q0.val, 0] :=
  (by decide +kernel : ∀ (q0 : Fin 10), ∃ t : Fin grid3.N, win3_2.index t = ![q0.val, 0])

/-- What point `t` writes back is block `t` of the whole step of the two arrays as the region finds them: the step is
    entry by entry, and the bias row is the same for every block. -/
theorem flushed_eq (c : Dev nD) (t : Fin cfg3.N) :
    (dat3 V c).flushed 2 t = ((cfg3.win 2).blk t).view.read (Elt Ideal) (whole (V c main_v58) (V c main_v59)) := by
  show (cfg3.win 2).cut (grid3.coords t) ((dat3 V c).after 2 t) = _
  rw [after3_2]
  unfold out3_2
  rw [View.canon_unit_zero zeroOff]
  simp only [View.ld_unit_zero (S := S10000x1) zeroOff, View.ld_unit_zero (S := S1x1) zeroOff]
  obtain ⟨e0, e1, e2, e3, e4, e5⟩ := index_facts t
  funext j
  show k3_pay1 (iblk3 V c 0 t) (iblk3 V c 1 t) j = whole (V c main_v58) (V c main_v59) (((cfg3.win 2).blk t).view.emb j)
  rw [body_apply, whole_apply]
  have h0 : iblk3 V c 0 t j = V c main_v58 (((cfg3.win 2).blk t).view.emb j) := by
    show V c main_v58 (((cfg3.win 0).blk t).view.emb j) = _
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 1 + 1 * (j 1).val = win3_2.index t (1 : Fin 2) * 1 + 1 * (j 1).val; omega
  have h1 : iblk3 V c 1 t (biasOverBlk j) = V c main_v59 (biasOver (((cfg3.win 2).blk t).view.emb j)) := by
    show V c main_v59 (((cfg3.win 1).blk t).view.emb (biasOverBlk j)) = _
    refine congrArg _ (funext fun a => Fin.ext ?_)
    match a with
    | ⟨0, _⟩ => show win3_1.index t (0 : Fin 2) * 1 + 1 * 0 = 0; omega
    | ⟨1, _⟩ => show win3_1.index t (1 : Fin 2) * 1 + 1 * (j 1).val = win3_2.index t (1 : Fin 2) * 1 + 1 * (j 1).val; omega
  rw [h0, h1]

/-- An index of the output array is in point `t`'s block iff each coordinate is in the block's range on its axis. -/
theorem mem_blk (t : Fin cfg3.N) (i : S100000x1.Idx) :
    i ∈ ((cfg3.win 2).blk t).view.set ↔ ∀ a : Fin 2, win3_2.index t a * S10000x1.size a ≤ (i a).val ∧ (i a).val < win3_2.index t a * S10000x1.size a + S10000x1.size a := by
  show i ∈ ((View.whole main_v60).slice (win3_2.rect t)).set ↔ _
  rw [View.set_slice_whole, Rect.mem_set_unit]
  exact Iff.rfl

/-- The ten blocks of 10000 rows tile the 100000 rows: row `r` is in block `r / 10000`. -/
theorem covered (i : S100000x1.Idx) : ∃ t : Fin cfg3.N, (cfg3.win 2).flush t = true ∧ i ∈ ((cfg3.win 2).blk t).view.set := by
  have hi0 : (i 0).val < 100000 := (i 0).isLt
  have hi1 : (i 1).val < 1 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 1 ≤ (i 1).val ∧ (i 1).val < win3_2.index t (1 : Fin 2) * 1 + 1; omega

/-- The output array after the region: the whole step of the two input arrays as the region finds them. -/
theorem final (c : Dev nD) : (dat3 V c).arrAt 2 cfg3.N = whole (V c main_v58) (V c main_v59) :=
  (dat3 V c).arrAt_eq_of_cover 2 (whole (V c main_v58) (V c main_v59)) (fun t _ => flushed_eq V c t) covered

end Cert.Gcn.Sigmoid2

end
-- ==== Proof.KernelRun.lean ====
/-
  The idealized kernel's run with its result named. The program is nine segments — host stretches and the four pipelined
  regions — and its generated frame proof chains them through the buffer contents at each boundary, ending with every
  unscoped buffer at the last boundary's contents. Read at the result buffer as well as at the arguments, that same
  final state says: every weakly fair execution terminates with the result array at the last boundary's contents of
  its buffer, the arguments unchanged.
-/
import proofs.«117024_j566935683372_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result array at the last
    boundary's contents of its buffer and the argument arrays as launched. -/
theorem run_named : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.Gcn.KernelRun

end
-- ==== Proof.KernelValue.lean ====
/-
  The idealized kernel's value. Between its four regions the kernel program runs the same host operations as the reference:
  the edge list with its self loops, the degrees and edge weights, and after each dense product the aggregation over the
  edges. Read stretch by stretch from an arbitrary entry valuation, each stretch writes one of the named message-passing
  functions of the buffers it finds and leaves the others; each region writes its whole-array layer step. Chained from the
  launch memory through the nine boundaries, the result array is
      sigmoid (aggregate (relu (aggregate (x · W1) + b1) · W2) + b2)
  with both aggregations over the same edge list and weights.
-/
import proofs.«117024_j566935683372_1_alg».proof.Proof.Gen.KernelIdeal.Frame
import proofs.«117024_j566935683372_1_alg».proof.Proof.Glue
import proofs.«117024_j566935683372_1_alg».proof.Proof.Dense1
import proofs.«117024_j566935683372_1_alg».proof.Proof.Relu1
import proofs.«117024_j566935683372_1_alg».proof.Proof.Dense2
import proofs.«117024_j566935683372_1_alg».proof.Proof.Sigmoid2
import proofs.«117024_j566935683372_1_alg».proof.Proof.KernelRun
import Idealize.ShloMosaic.Lib.StableHlo.Run
import Idealize.ShloMosaic.Lib.Pipeline.Value
import Idealize.ShloMosaic.PureOps.Ideal

set_option maxRecDepth 16384

noncomputable section

namespace Cert.Gcn.KernelValue

open Cert.KernelIdeal Cert.KernelIdeal.Gen
open Idealize.ShloMosaic Idealize.ShloMosaic.TcCoe Idealize.SL.Sem Idealize.ShloMosaic.StableHlo

section Stretches
variable {F : FTy → Type} [FloatOps F]

/-- The edge list's two rows with the self loops appended (the first seven host operations). -/
abbrev edgeOps : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]
/-- The degrees, their comparison with zero and their inverse square roots (the next eleven). -/
abbrev degreeOps : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]
theorem hostOps0_split : (hostOps0 : List (HloOp τ sig (Elt F))) = edgeOps ++ degreeOps := rfl

/-! ## Each stretch, from an arbitrary entry valuation `X`: what it writes, and what it leaves -/

theorem edgeOps_v3 (X : Valuation τ sig (Elt F)) : after edgeOps X (Proc.devRef .tc main_v3) = Glue.sources (X (Proc.devRef .tc main_arg1)) := by
  after_results
  rfl
theorem edgeOps_v6 (X : Valuation τ sig (Elt F)) : after edgeOps X (Proc.devRef .tc main_v6) = Glue.targets (X (Proc.devRef .tc main_arg1)) := by
  after_results
  rfl
theorem edgeOps_arg0 (X : Valuation τ sig (Elt F)) : after edgeOps X (Proc.devRef .tc main_arg0) = X (Proc.devRef .tc main_arg0) := by
  after_results_simp <;> rfl
theorem edgeOps_arg2 (X : Valuation τ sig (Elt F)) : after edgeOps X (Proc.devRef .tc main_arg2) = X (Proc.devRef .tc main_arg2) := by
  after_results_simp <;> rfl
theorem edgeOps_arg3 (X : Valuation τ sig (Elt F)) : after edgeOps X (Proc.devRef .tc main_arg3) = X (Proc.devRef .tc main_arg3) := by
  after_results_simp <;> rfl
theorem edgeOps_arg4 (X : Valuation τ sig (Elt F)) : after edgeOps X (Proc.devRef .tc main_arg4) = X (Proc.devRef .tc main_arg4) := by
  after_results_simp <;> rfl
theorem edgeOps_arg5 (X : Valuation τ sig (Elt F)) : after edgeOps X (Proc.devRef .tc main_arg5) = X (Proc.devRef .tc main_arg5) := by
  after_results_simp <;> rfl

theorem degreeOps_v12 (X : Valuation τ sig (Elt F)) : after degreeOps X (Proc.devRef .tc main_v12) = Glue.positive (X (Proc.devRef .tc main_v6)) := by
  after_results_simp <;> rfl
theorem degreeOps_v13 (X : Valuation τ sig (Elt F)) : after degreeOps X (Proc.devRef .tc main_v13) = Glue.rsqrtDegree (X (Proc.devRef .tc main_v6)) := by
  after_results_simp <;> rfl
theorem degreeOps_cst_2 (X : Valuation τ sig (Elt F)) : after degreeOps X (Proc.devRef .tc main_cst_2) = Glue.zeroScalar := by
  after_results_simp <;> rfl
theorem degreeOps_v3 (X : Valuation τ sig (Elt F)) : after degreeOps X (Proc.devRef .tc main_v3) = X (Proc.devRef .tc main_v3) := by
  after_results_simp <;> rfl
theorem degreeOps_v6 (X : Valuation τ sig (Elt F)) : after degreeOps X (Proc.devRef .tc main_v6) = X (Proc.devRef .tc main_v6) := by
  after_results_simp <;> rfl
theorem degreeOps_arg0 (X : Valuation τ sig (Elt F)) : after degreeOps X (Proc.devRef .tc main_arg0) = X (Proc.devRef .tc main_arg0) := by
  after_results_simp <;> rfl
theorem degreeOps_arg2 (X : Valuation τ sig (Elt F)) : after degreeOps X (Proc.devRef .tc main_arg2) = X (Proc.devRef .tc main_arg2) := by
  after_results_simp <;> rfl
theorem degreeOps_arg3 (X : Valuation τ sig (Elt F)) : after degreeOps X (Proc.devRef .tc main_arg3) = X (Proc.devRef .tc main_arg3) := by
  after_results_simp <;> rfl
theorem degreeOps_arg4 (X : Valuation τ sig (Elt F)) : after degreeOps X (Proc.devRef .tc main_arg4) = X (Proc.devRef .tc main_arg4) := by
  after_results_simp <;> rfl
theorem degreeOps_arg5 (X : Valuation τ sig (Elt F)) : after degreeOps X (Proc.devRef .tc main_arg5) = X (Proc.devRef .tc main_arg5) := by
  after_results_simp <;> rfl

theorem hostOps0_1_v14 (X : Valuation τ sig (Elt F)) : after hostOps0_1 X (Proc.devRef .tc main_v14) = Glue.pick (X (Proc.devRef .tc main_v12)) (X (Proc.devRef .tc main_v13)) (X (Proc.devRef .tc main_cst_2)) := by
  after_results_simp <;> rfl
theorem hostOps0_1_v3 (X : Valuation τ sig (Elt F)) : after hostOps0_1 X (Proc.devRef .tc main_v3) = X (Proc.devRef .tc main_v3) := by
  after_results_simp <;> rfl
theorem hostOps0_1_v6 (X : Valuation τ sig (Elt F)) : after hostOps0_1 X (Proc.devRef .tc main_v6) = X (Proc.devRef .tc main_v6) := by
  after_results_simp <;> rfl
theorem hostOps0_1_arg0 (X : Valuation τ sig (Elt F)) : after hostOps0_1 X (Proc.devRef .tc main_arg0) = X (Proc.devRef .tc main_arg0) := by
  after_results_simp <;> rfl
theorem hostOps0_1_arg2 (X : Valuation τ sig (Elt F)) : after hostOps0_1 X (Proc.devRef .tc main_arg2) = X (Proc.devRef .tc main_arg2) := by
  after_results_simp <;> rfl
theorem hostOps0_1_arg3 (X : Valuation τ sig (Elt F)) : after hostOps0_1 X (Proc.devRef .tc main_arg3) = X (Proc.devRef .tc main_arg3) := by
  after_results_simp <;> rfl
theorem hostOps0_1_arg4 (X : Valuation τ sig (Elt F)) : after hostOps0_1 X (Proc.devRef .tc main_arg4) = X (Proc.devRef .tc main_arg4) := by
  after_results_simp <;> rfl
theorem hostOps0_1_arg5 (X : Valuation τ sig (Elt F)) : after hostOps0_1 X (Proc.devRef .tc main_arg5) = X (Proc.devRef .tc main_arg5) := by
  after_results_simp <;> rfl

theorem hostOps0_2_v29 (X : Valuation τ sig (Elt F)) : after hostOps0_2 X (Proc.devRef .tc main_v29) = Glue.weights (X (Proc.devRef .tc main_v14)) (X (Proc.devRef .tc main_v3)) (X (Proc.devRef .tc main_v6)) := by
  after_results_simp <;> rfl
theorem hostOps0_2_v3 (X : Valuation τ sig (Elt F)) : after hostOps0_2 X (Proc.devRef .tc main_v3) = X (Proc.devRef .tc main_v3) := by
  after_results_simp <;> rfl
theorem hostOps0_2_v6 (X : Valuation τ sig (Elt F)) : after hostOps0_2 X (Proc.devRef .tc main_v6) = X (Proc.devRef .tc main_v6) := by
  after_results_simp <;> rfl
theorem hostOps0_2_arg0 (X : Valuation τ sig (Elt F)) : after hostOps0_2 X (Proc.devRef .tc main_arg0) = X (Proc.devRef .tc main_arg0) := by
  after_results_simp <;> rfl
theorem hostOps0_2_arg2 (X : Valuation τ sig (Elt F)) : after hostOps0_2 X (Proc.devRef .tc main_arg2) = X (Proc.devRef .tc main_arg2) := by
  after_results_simp <;> rfl
theorem hostOps0_2_arg3 (X : Valuation τ sig (Elt F)) : after hostOps0_2 X (Proc.devRef .tc main_arg3) = X (Proc.devRef .tc main_arg3) := by
  after_results_simp <;> rfl
theorem hostOps0_2_arg4 (X : Valuation τ sig (Elt F)) : after hostOps0_2 X (Proc.devRef .tc main_arg4) = X (Proc.devRef .tc main_arg4) := by
  after_results_simp <;> rfl
theorem hostOps0_2_arg5 (X : Valuation τ sig (Elt F)) : after hostOps0_2 X (Proc.devRef .tc main_arg5) = X (Proc.devRef .tc main_arg5) := by
  after_results_simp <;> rfl

theorem hostOps1_v43 (X : Valuation τ sig (Elt F)) : after hostOps1 X (Proc.devRef .tc main_v43) = Glue.aggregate64 (X (Proc.devRef .tc main_v30)) (X (Proc.devRef .tc main_v3)) (X (Proc.devRef .tc main_v6)) (X (Proc.devRef .tc main_v29)) := by
  after_results_simp <;> rfl
theorem hostOps1_v44 (X : Valuation τ sig (Elt F)) : after hostOps1 X (Proc.devRef .tc main_v44) = shapeCast S1x64 (X (Proc.devRef .tc main_arg3)) shapeCasts_S64_S1x64 := by
  after_results_simp <;> rfl
theorem hostOps1_v3 (X : Valuation τ sig (Elt F)) : after hostOps1 X (Proc.devRef .tc main_v3) = X (Proc.devRef .tc main_v3) := by
  after_results_simp <;> rfl
theorem hostOps1_v6 (X : Valuation τ sig (Elt F)) : after hostOps1 X (Proc.devRef .tc main_v6) = X (Proc.devRef .tc main_v6) := by
  after_results_simp <;> rfl
theorem hostOps1_v29 (X : Valuation τ sig (Elt F)) : after hostOps1 X (Proc.devRef .tc main_v29) = X (Proc.devRef .tc main_v29) := by
  after_results_simp <;> rfl
theorem hostOps1_arg4 (X : Valuation τ sig (Elt F)) : after hostOps1 X (Proc.devRef .tc main_arg4) = X (Proc.devRef .tc main_arg4) := by
  after_results_simp <;> rfl
theorem hostOps1_arg5 (X : Valuation τ sig (Elt F)) : after hostOps1 X (Proc.devRef .tc main_arg5) = X (Proc.devRef .tc main_arg5) := by
  after_results_simp <;> rfl

theorem hostOps3_v58 (X : Valuation τ sig (Elt F)) : after hostOps3 X (Proc.devRef .tc main_v58) = Glue.aggregate1 (X (Proc.devRef .tc main_v46)) (X (Proc.devRef .tc main_v3)) (X (Proc.devRef .tc main_v6)) (X (Proc.devRef .tc main_v29)) := by
  after_results_simp <;> rfl
theorem hostOps3_v59 (X : Valuation τ sig (Elt F)) : after hostOps3 X (Proc.devRef .tc main_v59) = shapeCast S1x1 (X (Proc.devRef .tc main_arg5)) shapeCasts_S1_S1x1 := by
  after_results_simp <;> rfl

end Stretches

variable (m : (ℓ : Loc nD τ sig) → Buf (Elt Ideal) ℓ) (ρ : Dev nD → PrngReg)

/-! ## The buffer contents at each boundary of the kernel program, as functions of the launch memory -/

theorem w3_v3 (c : Dev nD) : W3 m ρ c (Proc.devRef .tc main_v3) = (Glue.sources (m ((c : Thread nD τ).loc main_arg1))) := by
  show after hostOps0_2 (after hostOps0_1 (after hostOps0 (W0 m ρ c))) (Proc.devRef .tc main_v3) = _
  rw [hostOps0_split, StableHlo.after_append, hostOps0_2_v3, hostOps0_1_v3, degreeOps_v3, edgeOps_v3] <;> rfl
theorem w3_v6 (c : Dev nD) : W3 m ρ c (Proc.devRef .tc main_v6) = (Glue.targets (m ((c : Thread nD τ).loc main_arg1))) := by
  show after hostOps0_2 (after hostOps0_1 (after hostOps0 (W0 m ρ c))) (Proc.devRef .tc main_v6) = _
  rw [hostOps0_split, StableHlo.after_append, hostOps0_2_v6, hostOps0_1_v6, degreeOps_v6, edgeOps_v6] <;> rfl
theorem w3_arg0 (c : Dev nD) : W3 m ρ c (Proc.devRef .tc main_arg0) = (m ((c : Thread nD τ).loc main_arg0)) := by
  show after hostOps0_2 (after hostOps0_1 (after hostOps0 (W0 m ρ c))) (Proc.devRef .tc main_arg0) = _
  rw [hostOps0_split, StableHlo.after_append, hostOps0_2_arg0, hostOps0_1_arg0, degreeOps_arg0, edgeOps_arg0] <;> rfl
theorem w3_arg2 (c : Dev nD) : W3 m ρ c (Proc.devRef .tc main_arg2) = (m ((c : Thread nD τ).loc main_arg2)) := by
  show after hostOps0_2 (after hostOps0_1 (after hostOps0 (W0 m ρ c))) (Proc.devRef .tc main_arg2) = _
  rw [hostOps0_split, StableHlo.after_append, hostOps0_2_arg2, hostOps0_1_arg2, degreeOps_arg2, edgeOps_arg2] <;> rfl
theorem w3_arg3 (c : Dev nD) : W3 m ρ c (Proc.devRef .tc main_arg3) = (m ((c : Thread nD τ).loc main_arg3)) := by
  show after hostOps0_2 (after hostOps0_1 (after hostOps0 (W0 m ρ c))) (Proc.devRef .tc main_arg3) = _
  rw [hostOps0_split, StableHlo.after_append, hostOps0_2_arg3, hostOps0_1_arg3, degreeOps_arg3, edgeOps_arg3] <;> rfl
theorem w3_arg4 (c : Dev nD) : W3 m ρ c (Proc.devRef .tc main_arg4) = (m ((c : Thread nD τ).loc main_arg4)) := by
  show after hostOps0_2 (after hostOps0_1 (after hostOps0 (W0 m ρ c))) (Proc.devRef .tc main_arg4) = _
  rw [hostOps0_split, StableHlo.after_append, hostOps0_2_arg4, hostOps0_1_arg4, degreeOps_arg4, edgeOps_arg4] <;> rfl
theorem w3_arg5 (c : Dev nD) : W3 m ρ c (Proc.devRef .tc main_arg5) = (m ((c : Thread nD τ).loc main_arg5)) := by
  show after hostOps0_2 (after hostOps0_1 (after hostOps0 (W0 m ρ c))) (Proc.devRef .tc main_arg5) = _
  rw [hostOps0_split, StableHlo.after_append, hostOps0_2_arg5, hostOps0_1_arg5, degreeOps_arg5, edgeOps_arg5] <;> rfl
theorem w3_v29 (c : Dev nD) : W3 m ρ c (Proc.devRef .tc main_v29) = (Glue.edgeWeight (Glue.sources (m ((c : Thread nD τ).loc main_arg1))) (Glue.targets (m ((c : Thread nD τ).loc main_arg1)))) := by
  show after hostOps0_2 (after hostOps0_1 (after hostOps0 (W0 m ρ c))) (Proc.devRef .tc main_v29) = _
  rw [hostOps0_split, StableHlo.after_append, hostOps0_2_v29, hostOps0_1_v14, hostOps0_1_v3, hostOps0_1_v6,
    degreeOps_v12, degreeOps_v13, degreeOps_cst_2, degreeOps_v3, degreeOps_v6, edgeOps_v3, edgeOps_v6]
  rfl

theorem w4_v30 (c : Dev nD) : W4 m ρ c (Proc.devRef .tc main_v30) = (Dense1.whole (m ((c : Thread nD τ).loc main_arg0)) (m ((c : Thread nD τ).loc main_arg2))) :=
  (W4_arr m ρ c 2).trans ((Dense1.final (V3 m ρ) c).trans (congrArg₂ Dense1.whole (w3_arg0 m ρ c) (w3_arg2 m ρ c)))
theorem w4_v3 (c : Dev nD) : W4 m ρ c (Proc.devRef .tc main_v3) = (Glue.sources (m ((c : Thread nD τ).loc main_arg1))) :=
  (W4_of_ne m ρ c main_v3 (by decide)).trans (w3_v3 m ρ c)
theorem w4_v6 (c : Dev nD) : W4 m ρ c (Proc.devRef .tc main_v6) = (Glue.targets (m ((c : Thread nD τ).loc main_arg1))) :=
  (W4_of_ne m ρ c main_v6 (by decide)).trans (w3_v6 m ρ c)
theorem w4_v29 (c : Dev nD) : W4 m ρ c (Proc.devRef .tc main_v29) = (Glue.edgeWeight (Glue.sources (m ((c : Thread nD τ).loc main_arg1))) (Glue.targets (m ((c : Thread nD τ).loc main_arg1)))) :=
  (W4_of_ne m ρ c main_v29 (by decide)).trans (w3_v29 m ρ c)
theorem w4_arg3 (c : Dev nD) : W4 m ρ c (Proc.devRef .tc main_arg3) = (m ((c : Thread nD τ).loc main_arg3)) :=
  (W4_of_ne m ρ c main_arg3 (by decide)).trans (w3_arg3 m ρ c)
theorem w4_arg4 (c : Dev nD) : W4 m ρ c (Proc.devRef .tc main_arg4) = (m ((c : Thread nD τ).loc main_arg4)) :=
  (W4_of_ne m ρ c main_arg4 (by decide)).trans (w3_arg4 m ρ c)
theorem w4_arg5 (c : Dev nD) : W4 m ρ c (Proc.devRef .tc main_arg5) = (m ((c : Thread nD τ).loc main_arg5)) :=
  (W4_of_ne m ρ c main_arg5 (by decide)).trans (w3_arg5 m ρ c)

theorem w5_v43 (c : Dev nD) : W5 m ρ c (Proc.devRef .tc main_v43) = (Glue.aggregate64 (Dense1.whole (m ((c : Thread nD τ).loc main_arg0)) (m ((c : Thread nD τ).loc main_arg2))) (Glue.sources (m ((c : Thread nD τ).loc main_arg1))) (Glue.targets (m ((c : Thread nD τ).loc main_arg1))) (Glue.edgeWeight (Glue.sources (m ((c : Thread nD τ).loc main_arg1))) (Glue.targets (m ((c : Thread nD τ).loc main_arg1))))) := by
  show after hostOps1 (W4 m ρ c) (Proc.devRef .tc main_v43) = _
  rw [hostOps1_v43, w4_v30, w4_v3, w4_v6, w4_v29]
theorem w5_v44 (c : Dev nD) : W5 m ρ c (Proc.devRef .tc main_v44) = (shapeCast S1x64 (m ((c : Thread nD τ).loc main_arg3)) shapeCasts_S64_S1x64) := by
  show after hostOps1 (W4 m ρ c) (Proc.devRef .tc main_v44) = _
  rw [hostOps1_v44, w4_arg3]
theorem w5_v3 (c : Dev nD) : W5 m ρ c (Proc.devRef .tc main_v3) = (Glue.sources (m ((c : Thread nD τ).loc main_arg1))) := by
  show after hostOps1 (W4 m ρ c) (Proc.devRef .tc main_v3) = _
  rw [hostOps1_v3, w4_v3]
theorem w5_v6 (c : Dev nD) : W5 m ρ c (Proc.devRef .tc main_v6) = (Glue.targets (m ((c : Thread nD τ).loc main_arg1))) := by
  show after hostOps1 (W4 m ρ c) (Proc.devRef .tc main_v6) = _
  rw [hostOps1_v6, w4_v6]
theorem w5_v29 (c : Dev nD) : W5 m ρ c (Proc.devRef .tc main_v29) = (Glue.edgeWeight (Glue.sources (m ((c : Thread nD τ).loc main_arg1))) (Glue.targets (m ((c : Thread nD τ).loc main_arg1)))) := by
  show after hostOps1 (W4 m ρ c) (Proc.devRef .tc main_v29) = _
  rw [hostOps1_v29, w4_v29]
theorem w5_arg4 (c : Dev nD) : W5 m ρ c (Proc.devRef .tc main_arg4) = (m ((c : Thread nD τ).loc main_arg4)) := by
  show after hostOps1 (W4 m ρ c) (Proc.devRef .tc main_arg4) = _
  rw [hostOps1_arg4, w4_arg4]
theorem w5_arg5 (c : Dev nD) : W5 m ρ c (Proc.devRef .tc main_arg5) = (m ((c : Thread nD τ).loc main_arg5)) := by
  show after hostOps1 (W4 m ρ c) (Proc.devRef .tc main_arg5) = _
  rw [hostOps1_arg5, w4_arg5]

theorem w6_v45 (c : Dev nD) : W6 m ρ c (Proc.devRef .tc main_v45) = (Relu1.whole (Glue.aggregate64 (Dense1.whole (m ((c : Thread nD τ).loc main_arg0)) (m ((c : Thread nD τ).loc main_arg2))) (Glue.sources (m ((c : Thread nD τ).loc main_arg1))) (Glue.targets (m ((c : Thread nD τ).loc main_arg1))) (Glue.edgeWeight (Glue.sources (m ((c : Thread nD τ).loc main_arg1))) (Glue.targets (m ((c : Thread nD τ).loc main_arg1))))) (shapeCast S1x64 (m ((c : Thread nD τ).loc main_arg3)) shapeCasts_S64_S1x64)) :=
  (W6_arr m ρ c 2).trans ((Relu1.final (V5 m ρ) c).trans (congrArg₂ Relu1.whole (w5_v43 m ρ c) (w5_v44 m ρ c)))
theorem w6_v3 (c : Dev nD) : W6 m ρ c (Proc.devRef .tc main_v3) = (Glue.sources (m ((c : Thread nD τ).loc main_arg1))) :=
  (W6_of_ne m ρ c main_v3 (by decide)).trans (w5_v3 m ρ c)
theorem w6_v6 (c : Dev nD) : W6 m ρ c (Proc.devRef .tc main_v6) = (Glue.targets (m ((c : Thread nD τ).loc main_arg1))) :=
  (W6_of_ne m ρ c main_v6 (by decide)).trans (w5_v6 m ρ c)
theorem w6_v29 (c : Dev nD) : W6 m ρ c (Proc.devRef .tc main_v29) = (Glue.edgeWeight (Glue.sources (m ((c : Thread nD τ).loc main_arg1))) (Glue.targets (m ((c : Thread nD τ).loc main_arg1)))) :=
  (W6_of_ne m ρ c main_v29 (by decide)).trans (w5_v29 m ρ c)
theorem w6_arg4 (c : Dev nD) : W6 m ρ c (Proc.devRef .tc main_arg4) = (m ((c : Thread nD τ).loc main_arg4)) :=
  (W6_of_ne m ρ c main_arg4 (by decide)).trans (w5_arg4 m ρ c)
theorem w6_arg5 (c : Dev nD) : W6 m ρ c (Proc.devRef .tc main_arg5) = (m ((c : Thread nD τ).loc main_arg5)) :=
  (W6_of_ne m ρ c main_arg5 (by decide)).trans (w5_arg5 m ρ c)

theorem w7_v46 (c : Dev nD) : W7 m ρ c (Proc.devRef .tc main_v46) = (Dense2.whole (Relu1.whole (Glue.aggregate64 (Dense1.whole (m ((c : Thread nD τ).loc main_arg0)) (m ((c : Thread nD τ).loc main_arg2))) (Glue.sources (m ((c : Thread nD τ).loc main_arg1))) (Glue.targets (m ((c : Thread nD τ).loc main_arg1))) (Glue.edgeWeight (Glue.sources (m ((c : Thread nD τ).loc main_arg1))) (Glue.targets (m ((c : Thread nD τ).loc main_arg1))))) (shapeCast S1x64 (m ((c : Thread nD τ).loc main_arg3)) shapeCasts_S64_S1x64)) (m ((c : Thread nD τ).loc main_arg4))) :=
  (W7_arr m ρ c 2).trans ((Dense2.final (V6 m ρ) c).trans (congrArg₂ Dense2.whole (w6_v45 m ρ c) (w6_arg4 m ρ c)))
theorem w7_v3 (c : Dev nD) : W7 m ρ c (Proc.devRef .tc main_v3) = (Glue.sources (m ((c : Thread nD τ).loc main_arg1))) :=
  (W7_of_ne m ρ c main_v3 (by decide)).trans (w6_v3 m ρ c)
theorem w7_v6 (c : Dev nD) : W7 m ρ c (Proc.devRef .tc main_v6) = (Glue.targets (m ((c : Thread nD τ).loc main_arg1))) :=
  (W7_of_ne m ρ c main_v6 (by decide)).trans (w6_v6 m ρ c)
theorem w7_v29 (c : Dev nD) : W7 m ρ c (Proc.devRef .tc main_v29) = (Glue.edgeWeight (Glue.sources (m ((c : Thread nD τ).loc main_arg1))) (Glue.targets (m ((c : Thread nD τ).loc main_arg1)))) :=
  (W7_of_ne m ρ c main_v29 (by decide)).trans (w6_v29 m ρ c)
theorem w7_arg5 (c : Dev nD) : W7 m ρ c (Proc.devRef .tc main_arg5) = (m ((c : Thread nD τ).loc main_arg5)) :=
  (W7_of_ne m ρ c main_arg5 (by decide)).trans (w6_arg5 m ρ c)

theorem w8_v58 (c : Dev nD) : W8 m ρ c (Proc.devRef .tc main_v58) = (Glue.aggregate1 (Dense2.whole (Relu1.whole (Glue.aggregate64 (Dense1.whole (m ((c : Thread nD τ).loc main_arg0)) (m ((c : Thread nD τ).loc main_arg2))) (Glue.sources (m ((c : Thread nD τ).loc main_arg1))) (Glue.targets (m ((c : Thread nD τ).loc main_arg1))) (Glue.edgeWeight (Glue.sources (m ((c : Thread nD τ).loc main_arg1))) (Glue.targets (m ((c : Thread nD τ).loc main_arg1))))) (shapeCast S1x64 (m ((c : Thread nD τ).loc main_arg3)) shapeCasts_S64_S1x64)) (m ((c : Thread nD τ).loc main_arg4))) (Glue.sources (m ((c : Thread nD τ).loc main_arg1))) (Glue.targets (m ((c : Thread nD τ).loc main_arg1))) (Glue.edgeWeight (Glue.sources (m ((c : Thread nD τ).loc main_arg1))) (Glue.targets (m ((c : Thread nD τ).loc main_arg1))))) := by
  show after hostOps3 (W7 m ρ c) (Proc.devRef .tc main_v58) = _
  rw [hostOps3_v58, w7_v46, w7_v3, w7_v6, w7_v29]
theorem w8_v59 (c : Dev nD) : W8 m ρ c (Proc.devRef .tc main_v59) = (shapeCast S1x1 (m ((c : Thread nD τ).loc main_arg5)) shapeCasts_S1_S1x1) := by
  show after hostOps3 (W7 m ρ c) (Proc.devRef .tc main_v59) = _
  rw [hostOps3_v59, w7_arg5]

/-- The kernel program's result array, as a function of the launch memory: the two layers, each a dense product, the
    aggregation over the edges, the bias and the activation. -/
theorem w9_v60 (c : Dev nD) : W9 m ρ c (Proc.devRef .tc main_v60) = Sigmoid2.whole (Glue.aggregate1 (Dense2.whole (Relu1.whole (Glue.aggregate64 (Dense1.whole (m ((c : Thread nD τ).loc main_arg0)) (m ((c : Thread nD τ).loc main_arg2))) (Glue.sources (m ((c : Thread nD τ).loc main_arg1))) (Glue.targets (m ((c : Thread nD τ).loc main_arg1))) (Glue.edgeWeight (Glue.sources (m ((c : Thread nD τ).loc main_arg1))) (Glue.targets (m ((c : Thread nD τ).loc main_arg1))))) (shapeCast S1x64 (m ((c : Thread nD τ).loc main_arg3)) shapeCasts_S64_S1x64)) (m ((c : Thread nD τ).loc main_arg4))) (Glue.sources (m ((c : Thread nD τ).loc main_arg1))) (Glue.targets (m ((c : Thread nD τ).loc main_arg1))) (Glue.edgeWeight (Glue.sources (m ((c : Thread nD τ).loc main_arg1))) (Glue.targets (m ((c : Thread nD τ).loc main_arg1))))) (shapeCast S1x1 (m ((c : Thread nD τ).loc main_arg5)) shapeCasts_S1_S1x1) :=
  (W9_arr m ρ c 2).trans ((Sigmoid2.final (V8 m ρ) c).trans (congrArg₂ Sigmoid2.whole (w8_v58 m ρ c) (w8_v59 m ρ c)))

/-- The kernel program's result as a function of the launch memory. -/
abbrev result (c : Dev nD) : Buf (Elt Ideal) ((c.tc : Thread nD τ).loc main_v60) :=
  Sigmoid2.whole (Glue.aggregate1 (Dense2.whole (Relu1.whole (Glue.aggregate64 (Dense1.whole (m ((c : Thread nD τ).loc main_arg0)) (m ((c : Thread nD τ).loc main_arg2))) (Glue.sources (m ((c : Thread nD τ).loc main_arg1))) (Glue.targets (m ((c : Thread nD τ).loc main_arg1))) (Glue.edgeWeight (Glue.sources (m ((c : Thread nD τ).loc main_arg1))) (Glue.targets (m ((c : Thread nD τ).loc main_arg1))))) (shapeCast S1x64 (m ((c : Thread nD τ).loc main_arg3)) shapeCasts_S64_S1x64)) (m ((c : Thread nD τ).loc main_arg4))) (Glue.sources (m ((c : Thread nD τ).loc main_arg1))) (Glue.targets (m ((c : Thread nD τ).loc main_arg1))) (Glue.edgeWeight (Glue.sources (m ((c : Thread nD τ).loc main_arg1))) (Glue.targets (m ((c : Thread nD τ).loc main_arg1))))) (shapeCast S1x1 (m ((c : Thread nD τ).loc main_arg5)) shapeCasts_S1_S1x1)

/-- Every weakly fair execution of the idealized kernel program terminates with the result array at `result` and the
    arguments unchanged. -/
theorem run : θ_run defs (onTc (τ := τ) (main (F := Ideal))) ⟨m, fun _ => 0, ρ⟩ (fun r => ∀ c : Dev nD,
      r.2.mem ((c.tc : Thread nD τ).loc main_v60) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (w9_v60 m ρ c), (h c).2⟩) (KernelRun.run_named (F := Ideal) m ρ)

end Cert.Gcn.KernelValue

end
-- ==== Proof.RefRun.lean ====
/-
  The idealized reference's run. The reference is one straight line of ninety host operations (the two outlined functions'
  operations standing in their calls' places); listed in order, the program IS their sequence, so every weakly fair
  execution terminates with every buffer at the fold of the operations' results over the launch contents. The list is
  also cut into the stretches a two-layer graph convolution falls into — edge list and weights, dense product,
  aggregation, bias and activation, twice — for the value to be read stretch by stretch.
-/
import proofs.«117024_j566935683372_1_alg».proof.Proof.Gen.ReferenceIdeal
import Idealize.ShloMosaic.Lib.StableHlo.Run

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-- The edge list's two rows with the self loops appended. -/
abbrev opsA0a : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The degrees, their comparison with zero and their inverse square roots. -/
abbrev opsA0b : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The inverse square root of a positive degree, zero otherwise (the outlined `where`, in place). -/
abbrev opsA1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The edge weights. -/
abbrev opsA2 : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The first dense product. -/
abbrev opsD1 : List (HloOp τ sig (Elt F)) :=
  [ binary main_arg0 main_arg2 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The first layer's aggregation. -/
abbrev opsB : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The first layer's bias and the maximum with zero (the outlined `relu`, in place). -/
abbrev opsC : List (HloOp τ sig (Elt F)) :=
  [ unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

/-- The second dense product. -/
abbrev opsD2 : List (HloOp τ sig (Elt F)) :=
  [ binary main_v47 main_arg4 main_v48 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)) ]

/-- The second layer's aggregation. -/
abbrev opsD : List (HloOp τ sig (Elt F)) :=
  [ nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    binary main_v55 main_v56 main_v57 (mulf : (⟨S1700000x1, .f32⟩ : BufTy).Contents (Elt F) → (⟨S1700000x1, .f32⟩ : BufTy).Contents (Elt F) → (⟨S1700000x1, .f32⟩ : BufTy).Contents (Elt F)),
    nullary main_cst_11 (constant S_ .f32 0x00000000#32),
    unary main_cst_11 main_v58 (broadcastInDim S100000x1 ![] bcast_S_S100000x1 : (⟨S_, .f32⟩ : BufTy).Contents (Elt F) → (⟨S100000x1, .f32⟩ : BufTy).Contents (Elt F)),
    unary main_v6 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)) ]

/-- The second layer's bias and the sigmoid, spelt 1 / (1 + exp (−x)). -/
abbrev opsE : List (HloOp τ sig (Elt F)) :=
  [ unary main_arg5 main_v61 (broadcastInDim S1x1 ![1] bcast_S1_S1x1_1 : (⟨S1, .f32⟩ : BufTy).Contents (Elt F) → (⟨S1x1, .f32⟩ : BufTy).Contents (Elt F)),
    unary main_v61 main_v62 (broadcastInDim S100000x1 ![0, 1] bcast_S1x1_S100000x1_0_1 : (⟨S1x1, .f32⟩ : BufTy).Contents (Elt F) → (⟨S100000x1, .f32⟩ : BufTy).Contents (Elt F)),
    binary main_v60 main_v62 main_v63 (addf : (⟨S100000x1, .f32⟩ : BufTy).Contents (Elt F) → (⟨S100000x1, .f32⟩ : BufTy).Contents (Elt F) → (⟨S100000x1, .f32⟩ : BufTy).Contents (Elt F)),
    unary main_v63 main_v64 (Host.negf : (⟨S100000x1, .f32⟩ : BufTy).Contents (Elt F) → (⟨S100000x1, .f32⟩ : BufTy).Contents (Elt F)),
    unary main_v64 main_v65 (Host.exp : (⟨S100000x1, .f32⟩ : BufTy).Contents (Elt F) → (⟨S100000x1, .f32⟩ : BufTy).Contents (Elt F)),
    nullary main_cst_12 (constant S_ .f32 0x3F800000#32),
    unary main_cst_12 main_v66 (broadcastInDim S100000x1 ![] bcast_S_S100000x1 : (⟨S_, .f32⟩ : BufTy).Contents (Elt F) → (⟨S100000x1, .f32⟩ : BufTy).Contents (Elt F)),
    binary main_v66 main_v65 main_v67 (addf : (⟨S100000x1, .f32⟩ : BufTy).Contents (Elt F) → (⟨S100000x1, .f32⟩ : BufTy).Contents (Elt F) → (⟨S100000x1, .f32⟩ : BufTy).Contents (Elt F)),
    nullary main_cst_13 (constant S_ .f32 0x3F800000#32),
    unary main_cst_13 main_v68 (broadcastInDim S100000x1 ![] bcast_S_S100000x1 : (⟨S_, .f32⟩ : BufTy).Contents (Elt F) → (⟨S100000x1, .f32⟩ : BufTy).Contents (Elt F)),
    binary main_v68 main_v67 main_v69 (Host.divf : (⟨S100000x1, .f32⟩ : BufTy).Contents (Elt F) → (⟨S100000x1, .f32⟩ : BufTy).Contents (Elt F) → (⟨S100000x1, .f32⟩ : BufTy).Contents (Elt F)) ]

/-- The reference's ninety operations, in order. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    binary main_v47 main_arg4 main_v48 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    binary main_v55 main_v56 main_v57 (mulf : (⟨S1700000x1, .f32⟩ : BufTy).Contents (Elt F) → (⟨S1700000x1, .f32⟩ : BufTy).Contents (Elt F) → (⟨S1700000x1, .f32⟩ : BufTy).Contents (Elt F)),
    nullary main_cst_11 (constant S_ .f32 0x00000000#32),
    unary main_cst_11 main_v58 (broadcastInDim S100000x1 ![] bcast_S_S100000x1 : (⟨S_, .f32⟩ : BufTy).Contents (Elt F) → (⟨S100000x1, .f32⟩ : BufTy).Contents (Elt F)),
    unary main_v6 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)),
    unary main_arg5 main_v61 (broadcastInDim S1x1 ![1] bcast_S1_S1x1_1 : (⟨S1, .f32⟩ : BufTy).Contents (Elt F) → (⟨S1x1, .f32⟩ : BufTy).Contents (Elt F)),
    unary main_v61 main_v62 (broadcastInDim S100000x1 ![0, 1] bcast_S1x1_S100000x1_0_1 : (⟨S1x1, .f32⟩ : BufTy).Contents (Elt F) → (⟨S100000x1, .f32⟩ : BufTy).Contents (Elt F)),
    binary main_v60 main_v62 main_v63 (addf : (⟨S100000x1, .f32⟩ : BufTy).Contents (Elt F) → (⟨S100000x1, .f32⟩ : BufTy).Contents (Elt F) → (⟨S100000x1, .f32⟩ : BufTy).Contents (Elt F)),
    unary main_v63 main_v64 (Host.negf : (⟨S100000x1, .f32⟩ : BufTy).Contents (Elt F) → (⟨S100000x1, .f32⟩ : BufTy).Contents (Elt F)),
    unary main_v64 main_v65 (Host.exp : (⟨S100000x1, .f32⟩ : BufTy).Contents (Elt F) → (⟨S100000x1, .f32⟩ : BufTy).Contents (Elt F)),
    nullary main_cst_12 (constant S_ .f32 0x3F800000#32),
    unary main_cst_12 main_v66 (broadcastInDim S100000x1 ![] bcast_S_S100000x1 : (⟨S_, .f32⟩ : BufTy).Contents (Elt F) → (⟨S100000x1, .f32⟩ : BufTy).Contents (Elt F)),
    binary main_v66 main_v65 main_v67 (addf : (⟨S100000x1, .f32⟩ : BufTy).Contents (Elt F) → (⟨S100000x1, .f32⟩ : BufTy).Contents (Elt F) → (⟨S100000x1, .f32⟩ : BufTy).Contents (Elt F)),
    nullary main_cst_13 (constant S_ .f32 0x3F800000#32),
    unary main_cst_13 main_v68 (broadcastInDim S100000x1 ![] bcast_S_S100000x1 : (⟨S_, .f32⟩ : BufTy).Contents (Elt F) → (⟨S100000x1, .f32⟩ : BufTy).Contents (Elt F)),
    binary main_v68 main_v67 main_v69 (Host.divf : (⟨S100000x1, .f32⟩ : BufTy).Contents (Elt F) → (⟨S100000x1, .f32⟩ : BufTy).Contents (Elt F) → (⟨S100000x1, .f32⟩ : BufTy).Contents (Elt F)) ]

/-- The whole list is the stretches, in order. -/
theorem ops_split : (ops : List (HloOp τ sig (Elt F))) = opsA0a ++ (opsA0b ++ (opsA1 ++ (opsA2 ++ (opsD1 ++ (opsB ++ (opsC ++ (opsD2 ++ (opsD ++ opsE)))))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

set_option maxRecDepth 8192 in
set_option maxHeartbeats 36000000 in
/-- Every weakly fair execution of the reference terminates with the result buffer at the fold of the ninety operations
    over the launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = after ops (launchContents m c) (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v69,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.Gcn.RefRun

end
-- ==== Proof.RefValue.lean ====
/-
  The idealized reference's value. Its ninety host operations fall into stretches — edge list, degrees, weights, dense
  product, aggregation, bias and activation, twice over —; read stretch by stretch from an arbitrary entry valuation, each
  stretch writes one of the named message-passing functions, a dense product, or a bias-and-activation step of the
  buffers it finds, and leaves the others. Chained from the launch memory the result array is
      sigmoid (aggregate (relu (aggregate (x · W1) + b1) · W2) + b2),
  the same composition the kernel program's result is, with the layer steps spelt as host operations.
-/
import proofs.«117024_j566935683372_1_alg».proof.Proof.RefRun
import proofs.«117024_j566935683372_1_alg».proof.Proof.Glue
import proofs.«117024_j566935683372_1_alg».proof.Proof.Dense1
import proofs.«117024_j566935683372_1_alg».proof.Proof.Relu1
import proofs.«117024_j566935683372_1_alg».proof.Proof.Dense2
import proofs.«117024_j566935683372_1_alg».proof.Proof.Sigmoid2
import Idealize.ShloMosaic.Lib.Pipeline.Frame

set_option maxRecDepth 16384

noncomputable section

namespace Cert.Gcn.RefValue

open Cert.ReferenceIdeal Cert.ReferenceIdeal.Gen Cert.Gcn.RefRun
open Idealize.ShloMosaic Idealize.ShloMosaic.TcCoe Idealize.SL.Sem Idealize.ShloMosaic.StableHlo

section Stretches
variable {F : FTy → Type} [FloatOps F]

/-! ## Each stretch, from an arbitrary entry valuation `X`: what it writes, and what it leaves -/

theorem opsA0a_v3 (X : Valuation τ sig (Elt F)) : after opsA0a X (Proc.devRef .tc main_v3) = Glue.sources (X (Proc.devRef .tc main_arg1)) := by
  after_results
  rfl
theorem opsA0a_v6 (X : Valuation τ sig (Elt F)) : after opsA0a X (Proc.devRef .tc main_v6) = Glue.targets (X (Proc.devRef .tc main_arg1)) := by
  after_results
  rfl
theorem opsA0a_arg0 (X : Valuation τ sig (Elt F)) : after opsA0a X (Proc.devRef .tc main_arg0) = X (Proc.devRef .tc main_arg0) := by
  after_results_simp <;> rfl
theorem opsA0a_arg2 (X : Valuation τ sig (Elt F)) : after opsA0a X (Proc.devRef .tc main_arg2) = X (Proc.devRef .tc main_arg2) := by
  after_results_simp <;> rfl
theorem opsA0a_arg3 (X : Valuation τ sig (Elt F)) : after opsA0a X (Proc.devRef .tc main_arg3) = X (Proc.devRef .tc main_arg3) := by
  after_results_simp <;> rfl
theorem opsA0a_arg4 (X : Valuation τ sig (Elt F)) : after opsA0a X (Proc.devRef .tc main_arg4) = X (Proc.devRef .tc main_arg4) := by
  after_results_simp <;> rfl
theorem opsA0a_arg5 (X : Valuation τ sig (Elt F)) : after opsA0a X (Proc.devRef .tc main_arg5) = X (Proc.devRef .tc main_arg5) := by
  after_results_simp <;> rfl

theorem opsA0b_v12 (X : Valuation τ sig (Elt F)) : after opsA0b X (Proc.devRef .tc main_v12) = Glue.positive (X (Proc.devRef .tc main_v6)) := by
  after_results_simp <;> rfl
theorem opsA0b_v13 (X : Valuation τ sig (Elt F)) : after opsA0b X (Proc.devRef .tc main_v13) = Glue.rsqrtDegree (X (Proc.devRef .tc main_v6)) := by
  after_results_simp <;> rfl
theorem opsA0b_cst_2 (X : Valuation τ sig (Elt F)) : after opsA0b X (Proc.devRef .tc main_cst_2) = Glue.zeroScalar := by
  after_results_simp <;> rfl
theorem opsA0b_v3 (X : Valuation τ sig (Elt F)) : after opsA0b X (Proc.devRef .tc main_v3) = X (Proc.devRef .tc main_v3) := by
  after_results_simp <;> rfl
theorem opsA0b_v6 (X : Valuation τ sig (Elt F)) : after opsA0b X (Proc.devRef .tc main_v6) = X (Proc.devRef .tc main_v6) := by
  after_results_simp <;> rfl
theorem opsA0b_arg0 (X : Valuation τ sig (Elt F)) : after opsA0b X (Proc.devRef .tc main_arg0) = X (Proc.devRef .tc main_arg0) := by
  after_results_simp <;> rfl
theorem opsA0b_arg2 (X : Valuation τ sig (Elt F)) : after opsA0b X (Proc.devRef .tc main_arg2) = X (Proc.devRef .tc main_arg2) := by
  after_results_simp <;> rfl
theorem opsA0b_arg3 (X : Valuation τ sig (Elt F)) : after opsA0b X (Proc.devRef .tc main_arg3) = X (Proc.devRef .tc main_arg3) := by
  after_results_simp <;> rfl
theorem opsA0b_arg4 (X : Valuation τ sig (Elt F)) : after opsA0b X (Proc.devRef .tc main_arg4) = X (Proc.devRef .tc main_arg4) := by
  after_results_simp <;> rfl
theorem opsA0b_arg5 (X : Valuation τ sig (Elt F)) : after opsA0b X (Proc.devRef .tc main_arg5) = X (Proc.devRef .tc main_arg5) := by
  after_results_simp <;> rfl

theorem opsA1_v14 (X : Valuation τ sig (Elt F)) : after opsA1 X (Proc.devRef .tc main_v14) = Glue.pick (X (Proc.devRef .tc main_v12)) (X (Proc.devRef .tc main_v13)) (X (Proc.devRef .tc main_cst_2)) := by
  after_results_simp <;> rfl
theorem opsA1_v3 (X : Valuation τ sig (Elt F)) : after opsA1 X (Proc.devRef .tc main_v3) = X (Proc.devRef .tc main_v3) := by
  after_results_simp <;> rfl
theorem opsA1_v6 (X : Valuation τ sig (Elt F)) : after opsA1 X (Proc.devRef .tc main_v6) = X (Proc.devRef .tc main_v6) := by
  after_results_simp <;> rfl
theorem opsA1_arg0 (X : Valuation τ sig (Elt F)) : after opsA1 X (Proc.devRef .tc main_arg0) = X (Proc.devRef .tc main_arg0) := by
  after_results_simp <;> rfl
theorem opsA1_arg2 (X : Valuation τ sig (Elt F)) : after opsA1 X (Proc.devRef .tc main_arg2) = X (Proc.devRef .tc main_arg2) := by
  after_results_simp <;> rfl
theorem opsA1_arg3 (X : Valuation τ sig (Elt F)) : after opsA1 X (Proc.devRef .tc main_arg3) = X (Proc.devRef .tc main_arg3) := by
  after_results_simp <;> rfl
theorem opsA1_arg4 (X : Valuation τ sig (Elt F)) : after opsA1 X (Proc.devRef .tc main_arg4) = X (Proc.devRef .tc main_arg4) := by
  after_results_simp <;> rfl
theorem opsA1_arg5 (X : Valuation τ sig (Elt F)) : after opsA1 X (Proc.devRef .tc main_arg5) = X (Proc.devRef .tc main_arg5) := by
  after_results_simp <;> rfl

theorem opsA2_v29 (X : Valuation τ sig (Elt F)) : after opsA2 X (Proc.devRef .tc main_v29) = Glue.weights (X (Proc.devRef .tc main_v14)) (X (Proc.devRef .tc main_v3)) (X (Proc.devRef .tc main_v6)) := by
  after_results_simp <;> rfl
theorem opsA2_v3 (X : Valuation τ sig (Elt F)) : after opsA2 X (Proc.devRef .tc main_v3) = X (Proc.devRef .tc main_v3) := by
  after_results_simp <;> rfl
theorem opsA2_v6 (X : Valuation τ sig (Elt F)) : after opsA2 X (Proc.devRef .tc main_v6) = X (Proc.devRef .tc main_v6) := by
  after_results_simp <;> rfl
theorem opsA2_arg0 (X : Valuation τ sig (Elt F)) : after opsA2 X (Proc.devRef .tc main_arg0) = X (Proc.devRef .tc main_arg0) := by
  after_results_simp <;> rfl
theorem opsA2_arg2 (X : Valuation τ sig (Elt F)) : after opsA2 X (Proc.devRef .tc main_arg2) = X (Proc.devRef .tc main_arg2) := by
  after_results_simp <;> rfl
theorem opsA2_arg3 (X : Valuation τ sig (Elt F)) : after opsA2 X (Proc.devRef .tc main_arg3) = X (Proc.devRef .tc main_arg3) := by
  after_results_simp <;> rfl
theorem opsA2_arg4 (X : Valuation τ sig (Elt F)) : after opsA2 X (Proc.devRef .tc main_arg4) = X (Proc.devRef .tc main_arg4) := by
  after_results_simp <;> rfl
theorem opsA2_arg5 (X : Valuation τ sig (Elt F)) : after opsA2 X (Proc.devRef .tc main_arg5) = X (Proc.devRef .tc main_arg5) := by
  after_results_simp <;> rfl

theorem opsD1_v30 (X : Valuation τ sig (Elt F)) : after opsD1 X (Proc.devRef .tc main_v30) = Host.dotGeneral dot_S100000x128_S128x64_S100000x64_1_0_0_1_n_n none (X (Proc.devRef .tc main_arg0)) (X (Proc.devRef .tc main_arg2)) := by
  after_results_simp <;> rfl
theorem opsD1_v3 (X : Valuation τ sig (Elt F)) : after opsD1 X (Proc.devRef .tc main_v3) = X (Proc.devRef .tc main_v3) := by
  after_results_simp <;> rfl
theorem opsD1_v6 (X : Valuation τ sig (Elt F)) : after opsD1 X (Proc.devRef .tc main_v6) = X (Proc.devRef .tc main_v6) := by
  after_results_simp <;> rfl
theorem opsD1_v29 (X : Valuation τ sig (Elt F)) : after opsD1 X (Proc.devRef .tc main_v29) = X (Proc.devRef .tc main_v29) := by
  after_results_simp <;> rfl
theorem opsD1_arg3 (X : Valuation τ sig (Elt F)) : after opsD1 X (Proc.devRef .tc main_arg3) = X (Proc.devRef .tc main_arg3) := by
  after_results_simp <;> rfl
theorem opsD1_arg4 (X : Valuation τ sig (Elt F)) : after opsD1 X (Proc.devRef .tc main_arg4) = X (Proc.devRef .tc main_arg4) := by
  after_results_simp <;> rfl
theorem opsD1_arg5 (X : Valuation τ sig (Elt F)) : after opsD1 X (Proc.devRef .tc main_arg5) = X (Proc.devRef .tc main_arg5) := by
  after_results_simp <;> rfl

theorem opsB_v43 (X : Valuation τ sig (Elt F)) : after opsB X (Proc.devRef .tc main_v43) = Glue.aggregate64 (X (Proc.devRef .tc main_v30)) (X (Proc.devRef .tc main_v3)) (X (Proc.devRef .tc main_v6)) (X (Proc.devRef .tc main_v29)) := by
  after_results_simp <;> rfl
theorem opsB_v3 (X : Valuation τ sig (Elt F)) : after opsB X (Proc.devRef .tc main_v3) = X (Proc.devRef .tc main_v3) := by
  after_results_simp <;> rfl
theorem opsB_v6 (X : Valuation τ sig (Elt F)) : after opsB X (Proc.devRef .tc main_v6) = X (Proc.devRef .tc main_v6) := by
  after_results_simp <;> rfl
theorem opsB_v29 (X : Valuation τ sig (Elt F)) : after opsB X (Proc.devRef .tc main_v29) = X (Proc.devRef .tc main_v29) := by
  after_results_simp <;> rfl
theorem opsB_arg3 (X : Valuation τ sig (Elt F)) : after opsB X (Proc.devRef .tc main_arg3) = X (Proc.devRef .tc main_arg3) := by
  after_results_simp <;> rfl
theorem opsB_arg4 (X : Valuation τ sig (Elt F)) : after opsB X (Proc.devRef .tc main_arg4) = X (Proc.devRef .tc main_arg4) := by
  after_results_simp <;> rfl
theorem opsB_arg5 (X : Valuation τ sig (Elt F)) : after opsB X (Proc.devRef .tc main_arg5) = X (Proc.devRef .tc main_arg5) := by
  after_results_simp <;> rfl

theorem opsC_v47 (X : Valuation τ sig (Elt F)) : after opsC X (Proc.devRef .tc main_v47) = maximumf (addf (X (Proc.devRef .tc main_v43)) (broadcastInDim S100000x64 ![0, 1] bcast_S1x64_S100000x64_0_1 (broadcastInDim S1x64 ![1] bcast_S64_S1x64_1 (X (Proc.devRef .tc main_arg3))))) (broadcastInDim S100000x64 ![] bcast_S_S100000x64 (constant (F := F) S_ .f32 0x00000000#32)) := by
  after_results_simp <;> rfl
theorem opsC_v3 (X : Valuation τ sig (Elt F)) : after opsC X (Proc.devRef .tc main_v3) = X (Proc.devRef .tc main_v3) := by
  after_results_simp <;> rfl
theorem opsC_v6 (X : Valuation τ sig (Elt F)) : after opsC X (Proc.devRef .tc main_v6) = X (Proc.devRef .tc main_v6) := by
  after_results_simp <;> rfl
theorem opsC_v29 (X : Valuation τ sig (Elt F)) : after opsC X (Proc.devRef .tc main_v29) = X (Proc.devRef .tc main_v29) := by
  after_results_simp <;> rfl
theorem opsC_arg4 (X : Valuation τ sig (Elt F)) : after opsC X (Proc.devRef .tc main_arg4) = X (Proc.devRef .tc main_arg4) := by
  after_results_simp <;> rfl
theorem opsC_arg5 (X : Valuation τ sig (Elt F)) : after opsC X (Proc.devRef .tc main_arg5) = X (Proc.devRef .tc main_arg5) := by
  after_results_simp <;> rfl

theorem opsD2_v48 (X : Valuation τ sig (Elt F)) : after opsD2 X (Proc.devRef .tc main_v48) = Host.dotGeneral dot_S100000x64_S64x1_S100000x1_1_0_0_1_n_n none (X (Proc.devRef .tc main_v47)) (X (Proc.devRef .tc main_arg4)) := by
  after_results_simp <;> rfl
theorem opsD2_v3 (X : Valuation τ sig (Elt F)) : after opsD2 X (Proc.devRef .tc main_v3) = X (Proc.devRef .tc main_v3) := by
  after_results_simp <;> rfl
theorem opsD2_v6 (X : Valuation τ sig (Elt F)) : after opsD2 X (Proc.devRef .tc main_v6) = X (Proc.devRef .tc main_v6) := by
  after_results_simp <;> rfl
theorem opsD2_v29 (X : Valuation τ sig (Elt F)) : after opsD2 X (Proc.devRef .tc main_v29) = X (Proc.devRef .tc main_v29) := by
  after_results_simp <;> rfl
theorem opsD2_arg5 (X : Valuation τ sig (Elt F)) : after opsD2 X (Proc.devRef .tc main_arg5) = X (Proc.devRef .tc main_arg5) := by
  after_results_simp <;> rfl

theorem opsD_v60 (X : Valuation τ sig (Elt F)) : after opsD X (Proc.devRef .tc main_v60) = Glue.aggregate1 (X (Proc.devRef .tc main_v48)) (X (Proc.devRef .tc main_v3)) (X (Proc.devRef .tc main_v6)) (X (Proc.devRef .tc main_v29)) := by
  after_results_simp <;> rfl
theorem opsD_arg5 (X : Valuation τ sig (Elt F)) : after opsD X (Proc.devRef .tc main_arg5) = X (Proc.devRef .tc main_arg5) := by
  after_results_simp <;> rfl

theorem opsE_v69 (X : Valuation τ sig (Elt F)) : after opsE X (Proc.devRef .tc main_v69) = Host.divf (broadcastInDim S100000x1 ![] bcast_S_S100000x1 (constant (F := F) S_ .f32 0x3F800000#32)) (addf (broadcastInDim S100000x1 ![] bcast_S_S100000x1 (constant (F := F) S_ .f32 0x3F800000#32)) (Host.exp (Host.negf (addf (X (Proc.devRef .tc main_v60)) (broadcastInDim S100000x1 ![0, 1] bcast_S1x1_S100000x1_0_1 (broadcastInDim S1x1 ![1] bcast_S1_S1x1_1 (X (Proc.devRef .tc main_arg5)))))))) := by
  after_results_simp <;> rfl

end Stretches

variable (m : (ℓ : Loc nD τ sig) → Buf (Elt Ideal) ℓ)

/-! ## The buffer contents at each boundary between the reference's stretches, as functions of the launch memory -/

/-- The launch contents. -/
abbrev R0 (c : Dev nD) : Valuation τ sig (Elt Ideal) := launchContents m c
abbrev R1 (c : Dev nD) : Valuation τ sig (Elt Ideal) := after opsA0a (R0 m c)
theorem r1_v3 (c : Dev nD) : R1 m c (Proc.devRef .tc main_v3) = (Glue.sources (m ((c.tc : Thread nD τ).loc main_arg1))) := by
  show after opsA0a (R0 m c) (Proc.devRef .tc main_v3) = _
  rw [opsA0a_v3] <;> rfl
theorem r1_v6 (c : Dev nD) : R1 m c (Proc.devRef .tc main_v6) = (Glue.targets (m ((c.tc : Thread nD τ).loc main_arg1))) := by
  show after opsA0a (R0 m c) (Proc.devRef .tc main_v6) = _
  rw [opsA0a_v6] <;> rfl
theorem r1_arg0 (c : Dev nD) : R1 m c (Proc.devRef .tc main_arg0) = (m ((c.tc : Thread nD τ).loc main_arg0)) := by
  show after opsA0a (R0 m c) (Proc.devRef .tc main_arg0) = _
  rw [opsA0a_arg0] <;> rfl
theorem r1_arg2 (c : Dev nD) : R1 m c (Proc.devRef .tc main_arg2) = (m ((c.tc : Thread nD τ).loc main_arg2)) := by
  show after opsA0a (R0 m c) (Proc.devRef .tc main_arg2) = _
  rw [opsA0a_arg2] <;> rfl
theorem r1_arg3 (c : Dev nD) : R1 m c (Proc.devRef .tc main_arg3) = (m ((c.tc : Thread nD τ).loc main_arg3)) := by
  show after opsA0a (R0 m c) (Proc.devRef .tc main_arg3) = _
  rw [opsA0a_arg3] <;> rfl
theorem r1_arg4 (c : Dev nD) : R1 m c (Proc.devRef .tc main_arg4) = (m ((c.tc : Thread nD τ).loc main_arg4)) := by
  show after opsA0a (R0 m c) (Proc.devRef .tc main_arg4) = _
  rw [opsA0a_arg4] <;> rfl
theorem r1_arg5 (c : Dev nD) : R1 m c (Proc.devRef .tc main_arg5) = (m ((c.tc : Thread nD τ).loc main_arg5)) := by
  show after opsA0a (R0 m c) (Proc.devRef .tc main_arg5) = _
  rw [opsA0a_arg5] <;> rfl
abbrev R2 (c : Dev nD) : Valuation τ sig (Elt Ideal) := after opsA0b (R1 m c)
theorem r2_v12 (c : Dev nD) : R2 m c (Proc.devRef .tc main_v12) = (Glue.positive (Glue.targets (m ((c.tc : Thread nD τ).loc main_arg1)))) := by
  show after opsA0b (R1 m c) (Proc.devRef .tc main_v12) = _
  rw [opsA0b_v12, r1_v6] <;> rfl
theorem r2_v13 (c : Dev nD) : R2 m c (Proc.devRef .tc main_v13) = (Glue.rsqrtDegree (Glue.targets (m ((c.tc : Thread nD τ).loc main_arg1)))) := by
  show after opsA0b (R1 m c) (Proc.devRef .tc main_v13) = _
  rw [opsA0b_v13, r1_v6] <;> rfl
theorem r2_cst_2 (c : Dev nD) : R2 m c (Proc.devRef .tc main_cst_2) = Glue.zeroScalar := by
  show after opsA0b (R1 m c) (Proc.devRef .tc main_cst_2) = _
  rw [opsA0b_cst_2] <;> rfl
theorem r2_v3 (c : Dev nD) : R2 m c (Proc.devRef .tc main_v3) = (Glue.sources (m ((c.tc : Thread nD τ).loc main_arg1))) := by
  show after opsA0b (R1 m c) (Proc.devRef .tc main_v3) = _
  rw [opsA0b_v3, r1_v3] <;> rfl
theorem r2_v6 (c : Dev nD) : R2 m c (Proc.devRef .tc main_v6) = (Glue.targets (m ((c.tc : Thread nD τ).loc main_arg1))) := by
  show after opsA0b (R1 m c) (Proc.devRef .tc main_v6) = _
  rw [opsA0b_v6, r1_v6] <;> rfl
theorem r2_arg0 (c : Dev nD) : R2 m c (Proc.devRef .tc main_arg0) = (m ((c.tc : Thread nD τ).loc main_arg0)) := by
  show after opsA0b (R1 m c) (Proc.devRef .tc main_arg0) = _
  rw [opsA0b_arg0, r1_arg0] <;> rfl
theorem r2_arg2 (c : Dev nD) : R2 m c (Proc.devRef .tc main_arg2) = (m ((c.tc : Thread nD τ).loc main_arg2)) := by
  show after opsA0b (R1 m c) (Proc.devRef .tc main_arg2) = _
  rw [opsA0b_arg2, r1_arg2] <;> rfl
theorem r2_arg3 (c : Dev nD) : R2 m c (Proc.devRef .tc main_arg3) = (m ((c.tc : Thread nD τ).loc main_arg3)) := by
  show after opsA0b (R1 m c) (Proc.devRef .tc main_arg3) = _
  rw [opsA0b_arg3, r1_arg3] <;> rfl
theorem r2_arg4 (c : Dev nD) : R2 m c (Proc.devRef .tc main_arg4) = (m ((c.tc : Thread nD τ).loc main_arg4)) := by
  show after opsA0b (R1 m c) (Proc.devRef .tc main_arg4) = _
  rw [opsA0b_arg4, r1_arg4] <;> rfl
theorem r2_arg5 (c : Dev nD) : R2 m c (Proc.devRef .tc main_arg5) = (m ((c.tc : Thread nD τ).loc main_arg5)) := by
  show after opsA0b (R1 m c) (Proc.devRef .tc main_arg5) = _
  rw [opsA0b_arg5, r1_arg5] <;> rfl
abbrev R3 (c : Dev nD) : Valuation τ sig (Elt Ideal) := after opsA1 (R2 m c)
theorem r3_v14 (c : Dev nD) : R3 m c (Proc.devRef .tc main_v14) = (Glue.invSqrtDegree (Glue.targets (m ((c.tc : Thread nD τ).loc main_arg1)))) := by
  show after opsA1 (R2 m c) (Proc.devRef .tc main_v14) = _
  rw [opsA1_v14, r2_v12, r2_v13, r2_cst_2] <;> rfl
theorem r3_v3 (c : Dev nD) : R3 m c (Proc.devRef .tc main_v3) = (Glue.sources (m ((c.tc : Thread nD τ).loc main_arg1))) := by
  show after opsA1 (R2 m c) (Proc.devRef .tc main_v3) = _
  rw [opsA1_v3, r2_v3] <;> rfl
theorem r3_v6 (c : Dev nD) : R3 m c (Proc.devRef .tc main_v6) = (Glue.targets (m ((c.tc : Thread nD τ).loc main_arg1))) := by
  show after opsA1 (R2 m c) (Proc.devRef .tc main_v6) = _
  rw [opsA1_v6, r2_v6] <;> rfl
theorem r3_arg0 (c : Dev nD) : R3 m c (Proc.devRef .tc main_arg0) = (m ((c.tc : Thread nD τ).loc main_arg0)) := by
  show after opsA1 (R2 m c) (Proc.devRef .tc main_arg0) = _
  rw [opsA1_arg0, r2_arg0] <;> rfl
theorem r3_arg2 (c : Dev nD) : R3 m c (Proc.devRef .tc main_arg2) = (m ((c.tc : Thread nD τ).loc main_arg2)) := by
  show after opsA1 (R2 m c) (Proc.devRef .tc main_arg2) = _
  rw [opsA1_arg2, r2_arg2] <;> rfl
theorem r3_arg3 (c : Dev nD) : R3 m c (Proc.devRef .tc main_arg3) = (m ((c.tc : Thread nD τ).loc main_arg3)) := by
  show after opsA1 (R2 m c) (Proc.devRef .tc main_arg3) = _
  rw [opsA1_arg3, r2_arg3] <;> rfl
theorem r3_arg4 (c : Dev nD) : R3 m c (Proc.devRef .tc main_arg4) = (m ((c.tc : Thread nD τ).loc main_arg4)) := by
  show after opsA1 (R2 m c) (Proc.devRef .tc main_arg4) = _
  rw [opsA1_arg4, r2_arg4] <;> rfl
theorem r3_arg5 (c : Dev nD) : R3 m c (Proc.devRef .tc main_arg5) = (m ((c.tc : Thread nD τ).loc main_arg5)) := by
  show after opsA1 (R2 m c) (Proc.devRef .tc main_arg5) = _
  rw [opsA1_arg5, r2_arg5] <;> rfl
abbrev R4 (c : Dev nD) : Valuation τ sig (Elt Ideal) := after opsA2 (R3 m c)
theorem r4_v29 (c : Dev nD) : R4 m c (Proc.devRef .tc main_v29) = (Glue.edgeWeight (Glue.sources (m ((c.tc : Thread nD τ).loc main_arg1))) (Glue.targets (m ((c.tc : Thread nD τ).loc main_arg1)))) := by
  show after opsA2 (R3 m c) (Proc.devRef .tc main_v29) = _
  rw [opsA2_v29, r3_v14, r3_v3, r3_v6] <;> rfl
theorem r4_v3 (c : Dev nD) : R4 m c (Proc.devRef .tc main_v3) = (Glue.sources (m ((c.tc : Thread nD τ).loc main_arg1))) := by
  show after opsA2 (R3 m c) (Proc.devRef .tc main_v3) = _
  rw [opsA2_v3, r3_v3] <;> rfl
theorem r4_v6 (c : Dev nD) : R4 m c (Proc.devRef .tc main_v6) = (Glue.targets (m ((c.tc : Thread nD τ).loc main_arg1))) := by
  show after opsA2 (R3 m c) (Proc.devRef .tc main_v6) = _
  rw [opsA2_v6, r3_v6] <;> rfl
theorem r4_arg0 (c : Dev nD) : R4 m c (Proc.devRef .tc main_arg0) = (m ((c.tc : Thread nD τ).loc main_arg0)) := by
  show after opsA2 (R3 m c) (Proc.devRef .tc main_arg0) = _
  rw [opsA2_arg0, r3_arg0] <;> rfl
theorem r4_arg2 (c : Dev nD) : R4 m c (Proc.devRef .tc main_arg2) = (m ((c.tc : Thread nD τ).loc main_arg2)) := by
  show after opsA2 (R3 m c) (Proc.devRef .tc main_arg2) = _
  rw [opsA2_arg2, r3_arg2] <;> rfl
theorem r4_arg3 (c : Dev nD) : R4 m c (Proc.devRef .tc main_arg3) = (m ((c.tc : Thread nD τ).loc main_arg3)) := by
  show after opsA2 (R3 m c) (Proc.devRef .tc main_arg3) = _
  rw [opsA2_arg3, r3_arg3] <;> rfl
theorem r4_arg4 (c : Dev nD) : R4 m c (Proc.devRef .tc main_arg4) = (m ((c.tc : Thread nD τ).loc main_arg4)) := by
  show after opsA2 (R3 m c) (Proc.devRef .tc main_arg4) = _
  rw [opsA2_arg4, r3_arg4] <;> rfl
theorem r4_arg5 (c : Dev nD) : R4 m c (Proc.devRef .tc main_arg5) = (m ((c.tc : Thread nD τ).loc main_arg5)) := by
  show after opsA2 (R3 m c) (Proc.devRef .tc main_arg5) = _
  rw [opsA2_arg5, r3_arg5] <;> rfl
abbrev R5 (c : Dev nD) : Valuation τ sig (Elt Ideal) := after opsD1 (R4 m c)
theorem r5_v30 (c : Dev nD) : R5 m c (Proc.devRef .tc main_v30) = (Dense1.whole (m ((c.tc : Thread nD τ).loc main_arg0)) (m ((c.tc : Thread nD τ).loc main_arg2))) := by
  show after opsD1 (R4 m c) (Proc.devRef .tc main_v30) = _
  rw [opsD1_v30, r4_arg0, r4_arg2] <;> rfl
theorem r5_v3 (c : Dev nD) : R5 m c (Proc.devRef .tc main_v3) = (Glue.sources (m ((c.tc : Thread nD τ).loc main_arg1))) := by
  show after opsD1 (R4 m c) (Proc.devRef .tc main_v3) = _
  rw [opsD1_v3, r4_v3] <;> rfl
theorem r5_v6 (c : Dev nD) : R5 m c (Proc.devRef .tc main_v6) = (Glue.targets (m ((c.tc : Thread nD τ).loc main_arg1))) := by
  show after opsD1 (R4 m c) (Proc.devRef .tc main_v6) = _
  rw [opsD1_v6, r4_v6] <;> rfl
theorem r5_v29 (c : Dev nD) : R5 m c (Proc.devRef .tc main_v29) = (Glue.edgeWeight (Glue.sources (m ((c.tc : Thread nD τ).loc main_arg1))) (Glue.targets (m ((c.tc : Thread nD τ).loc main_arg1)))) := by
  show after opsD1 (R4 m c) (Proc.devRef .tc main_v29) = _
  rw [opsD1_v29, r4_v29] <;> rfl
theorem r5_arg3 (c : Dev nD) : R5 m c (Proc.devRef .tc main_arg3) = (m ((c.tc : Thread nD τ).loc main_arg3)) := by
  show after opsD1 (R4 m c) (Proc.devRef .tc main_arg3) = _
  rw [opsD1_arg3, r4_arg3] <;> rfl
theorem r5_arg4 (c : Dev nD) : R5 m c (Proc.devRef .tc main_arg4) = (m ((c.tc : Thread nD τ).loc main_arg4)) := by
  show after opsD1 (R4 m c) (Proc.devRef .tc main_arg4) = _
  rw [opsD1_arg4, r4_arg4] <;> rfl
theorem r5_arg5 (c : Dev nD) : R5 m c (Proc.devRef .tc main_arg5) = (m ((c.tc : Thread nD τ).loc main_arg5)) := by
  show after opsD1 (R4 m c) (Proc.devRef .tc main_arg5) = _
  rw [opsD1_arg5, r4_arg5] <;> rfl
abbrev R6 (c : Dev nD) : Valuation τ sig (Elt Ideal) := after opsB (R5 m c)
theorem r6_v43 (c : Dev nD) : R6 m c (Proc.devRef .tc main_v43) = (Glue.aggregate64 (Dense1.whole (m ((c.tc : Thread nD τ).loc main_arg0)) (m ((c.tc : Thread nD τ).loc main_arg2))) (Glue.sources (m ((c.tc : Thread nD τ).loc main_arg1))) (Glue.targets (m ((c.tc : Thread nD τ).loc main_arg1))) (Glue.edgeWeight (Glue.sources (m ((c.tc : Thread nD τ).loc main_arg1))) (Glue.targets (m ((c.tc : Thread nD τ).loc main_arg1))))) := by
  show after opsB (R5 m c) (Proc.devRef .tc main_v43) = _
  rw [opsB_v43, r5_v30, r5_v3, r5_v6, r5_v29] <;> rfl
theorem r6_v3 (c : Dev nD) : R6 m c (Proc.devRef .tc main_v3) = (Glue.sources (m ((c.tc : Thread nD τ).loc main_arg1))) := by
  show after opsB (R5 m c) (Proc.devRef .tc main_v3) = _
  rw [opsB_v3, r5_v3] <;> rfl
theorem r6_v6 (c : Dev nD) : R6 m c (Proc.devRef .tc main_v6) = (Glue.targets (m ((c.tc : Thread nD τ).loc main_arg1))) := by
  show after opsB (R5 m c) (Proc.devRef .tc main_v6) = _
  rw [opsB_v6, r5_v6] <;> rfl
theorem r6_v29 (c : Dev nD) : R6 m c (Proc.devRef .tc main_v29) = (Glue.edgeWeight (Glue.sources (m ((c.tc : Thread nD τ).loc main_arg1))) (Glue.targets (m ((c.tc : Thread nD τ).loc main_arg1)))) := by
  show after opsB (R5 m c) (Proc.devRef .tc main_v29) = _
  rw [opsB_v29, r5_v29] <;> rfl
theorem r6_arg3 (c : Dev nD) : R6 m c (Proc.devRef .tc main_arg3) = (m ((c.tc : Thread nD τ).loc main_arg3)) := by
  show after opsB (R5 m c) (Proc.devRef .tc main_arg3) = _
  rw [opsB_arg3, r5_arg3] <;> rfl
theorem r6_arg4 (c : Dev nD) : R6 m c (Proc.devRef .tc main_arg4) = (m ((c.tc : Thread nD τ).loc main_arg4)) := by
  show after opsB (R5 m c) (Proc.devRef .tc main_arg4) = _
  rw [opsB_arg4, r5_arg4] <;> rfl
theorem r6_arg5 (c : Dev nD) : R6 m c (Proc.devRef .tc main_arg5) = (m ((c.tc : Thread nD τ).loc main_arg5)) := by
  show after opsB (R5 m c) (Proc.devRef .tc main_arg5) = _
  rw [opsB_arg5, r5_arg5] <;> rfl
abbrev R7 (c : Dev nD) : Valuation τ sig (Elt Ideal) := after opsC (R6 m c)
theorem r7_v47 (c : Dev nD) : R7 m c (Proc.devRef .tc main_v47) = (Relu1.whole (Glue.aggregate64 (Dense1.whole (m ((c.tc : Thread nD τ).loc main_arg0)) (m ((c.tc : Thread nD τ).loc main_arg2))) (Glue.sources (m ((c.tc : Thread nD τ).loc main_arg1))) (Glue.targets (m ((c.tc : Thread nD τ).loc main_arg1))) (Glue.edgeWeight (Glue.sources (m ((c.tc : Thread nD τ).loc main_arg1))) (Glue.targets (m ((c.tc : Thread nD τ).loc main_arg1))))) (broadcastInDim S1x64 ![1] bcast_S64_S1x64_1 (m ((c.tc : Thread nD τ).loc main_arg3)))) := by
  show after opsC (R6 m c) (Proc.devRef .tc main_v47) = _
  rw [opsC_v47, r6_v43, r6_arg3] <;> rfl
theorem r7_v3 (c : Dev nD) : R7 m c (Proc.devRef .tc main_v3) = (Glue.sources (m ((c.tc : Thread nD τ).loc main_arg1))) := by
  show after opsC (R6 m c) (Proc.devRef .tc main_v3) = _
  rw [opsC_v3, r6_v3] <;> rfl
theorem r7_v6 (c : Dev nD) : R7 m c (Proc.devRef .tc main_v6) = (Glue.targets (m ((c.tc : Thread nD τ).loc main_arg1))) := by
  show after opsC (R6 m c) (Proc.devRef .tc main_v6) = _
  rw [opsC_v6, r6_v6] <;> rfl
theorem r7_v29 (c : Dev nD) : R7 m c (Proc.devRef .tc main_v29) = (Glue.edgeWeight (Glue.sources (m ((c.tc : Thread nD τ).loc main_arg1))) (Glue.targets (m ((c.tc : Thread nD τ).loc main_arg1)))) := by
  show after opsC (R6 m c) (Proc.devRef .tc main_v29) = _
  rw [opsC_v29, r6_v29] <;> rfl
theorem r7_arg4 (c : Dev nD) : R7 m c (Proc.devRef .tc main_arg4) = (m ((c.tc : Thread nD τ).loc main_arg4)) := by
  show after opsC (R6 m c) (Proc.devRef .tc main_arg4) = _
  rw [opsC_arg4, r6_arg4] <;> rfl
theorem r7_arg5 (c : Dev nD) : R7 m c (Proc.devRef .tc main_arg5) = (m ((c.tc : Thread nD τ).loc main_arg5)) := by
  show after opsC (R6 m c) (Proc.devRef .tc main_arg5) = _
  rw [opsC_arg5, r6_arg5] <;> rfl
abbrev R8 (c : Dev nD) : Valuation τ sig (Elt Ideal) := after opsD2 (R7 m c)
theorem r8_v48 (c : Dev nD) : R8 m c (Proc.devRef .tc main_v48) = (Dense2.whole (Relu1.whole (Glue.aggregate64 (Dense1.whole (m ((c.tc : Thread nD τ).loc main_arg0)) (m ((c.tc : Thread nD τ).loc main_arg2))) (Glue.sources (m ((c.tc : Thread nD τ).loc main_arg1))) (Glue.targets (m ((c.tc : Thread nD τ).loc main_arg1))) (Glue.edgeWeight (Glue.sources (m ((c.tc : Thread nD τ).loc main_arg1))) (Glue.targets (m ((c.tc : Thread nD τ).loc main_arg1))))) (broadcastInDim S1x64 ![1] bcast_S64_S1x64_1 (m ((c.tc : Thread nD τ).loc main_arg3)))) (m ((c.tc : Thread nD τ).loc main_arg4))) := by
  show after opsD2 (R7 m c) (Proc.devRef .tc main_v48) = _
  rw [opsD2_v48, r7_v47, r7_arg4] <;> rfl
theorem r8_v3 (c : Dev nD) : R8 m c (Proc.devRef .tc main_v3) = (Glue.sources (m ((c.tc : Thread nD τ).loc main_arg1))) := by
  show after opsD2 (R7 m c) (Proc.devRef .tc main_v3) = _
  rw [opsD2_v3, r7_v3] <;> rfl
theorem r8_v6 (c : Dev nD) : R8 m c (Proc.devRef .tc main_v6) = (Glue.targets (m ((c.tc : Thread nD τ).loc main_arg1))) := by
  show after opsD2 (R7 m c) (Proc.devRef .tc main_v6) = _
  rw [opsD2_v6, r7_v6] <;> rfl
theorem r8_v29 (c : Dev nD) : R8 m c (Proc.devRef .tc main_v29) = (Glue.edgeWeight (Glue.sources (m ((c.tc : Thread nD τ).loc main_arg1))) (Glue.targets (m ((c.tc : Thread nD τ).loc main_arg1)))) := by
  show after opsD2 (R7 m c) (Proc.devRef .tc main_v29) = _
  rw [opsD2_v29, r7_v29] <;> rfl
theorem r8_arg5 (c : Dev nD) : R8 m c (Proc.devRef .tc main_arg5) = (m ((c.tc : Thread nD τ).loc main_arg5)) := by
  show after opsD2 (R7 m c) (Proc.devRef .tc main_arg5) = _
  rw [opsD2_arg5, r7_arg5] <;> rfl
abbrev R9 (c : Dev nD) : Valuation τ sig (Elt Ideal) := after opsD (R8 m c)
theorem r9_v60 (c : Dev nD) : R9 m c (Proc.devRef .tc main_v60) = (Glue.aggregate1 (Dense2.whole (Relu1.whole (Glue.aggregate64 (Dense1.whole (m ((c.tc : Thread nD τ).loc main_arg0)) (m ((c.tc : Thread nD τ).loc main_arg2))) (Glue.sources (m ((c.tc : Thread nD τ).loc main_arg1))) (Glue.targets (m ((c.tc : Thread nD τ).loc main_arg1))) (Glue.edgeWeight (Glue.sources (m ((c.tc : Thread nD τ).loc main_arg1))) (Glue.targets (m ((c.tc : Thread nD τ).loc main_arg1))))) (broadcastInDim S1x64 ![1] bcast_S64_S1x64_1 (m ((c.tc : Thread nD τ).loc main_arg3)))) (m ((c.tc : Thread nD τ).loc main_arg4))) (Glue.sources (m ((c.tc : Thread nD τ).loc main_arg1))) (Glue.targets (m ((c.tc : Thread nD τ).loc main_arg1))) (Glue.edgeWeight (Glue.sources (m ((c.tc : Thread nD τ).loc main_arg1))) (Glue.targets (m ((c.tc : Thread nD τ).loc main_arg1))))) := by
  show after opsD (R8 m c) (Proc.devRef .tc main_v60) = _
  rw [opsD_v60, r8_v48, r8_v3, r8_v6, r8_v29] <;> rfl
theorem r9_arg5 (c : Dev nD) : R9 m c (Proc.devRef .tc main_arg5) = (m ((c.tc : Thread nD τ).loc main_arg5)) := by
  show after opsD (R8 m c) (Proc.devRef .tc main_arg5) = _
  rw [opsD_arg5, r8_arg5] <;> rfl
abbrev R10 (c : Dev nD) : Valuation τ sig (Elt Ideal) := after opsE (R9 m c)
theorem r10_v69 (c : Dev nD) : R10 m c (Proc.devRef .tc main_v69) = Sigmoid2.whole (Glue.aggregate1 (Dense2.whole (Relu1.whole (Glue.aggregate64 (Dense1.whole (m ((c.tc : Thread nD τ).loc main_arg0)) (m ((c.tc : Thread nD τ).loc main_arg2))) (Glue.sources (m ((c.tc : Thread nD τ).loc main_arg1))) (Glue.targets (m ((c.tc : Thread nD τ).loc main_arg1))) (Glue.edgeWeight (Glue.sources (m ((c.tc : Thread nD τ).loc main_arg1))) (Glue.targets (m ((c.tc : Thread nD τ).loc main_arg1))))) (broadcastInDim S1x64 ![1] bcast_S64_S1x64_1 (m ((c.tc : Thread nD τ).loc main_arg3)))) (m ((c.tc : Thread nD τ).loc main_arg4))) (Glue.sources (m ((c.tc : Thread nD τ).loc main_arg1))) (Glue.targets (m ((c.tc : Thread nD τ).loc main_arg1))) (Glue.edgeWeight (Glue.sources (m ((c.tc : Thread nD τ).loc main_arg1))) (Glue.targets (m ((c.tc : Thread nD τ).loc main_arg1))))) (broadcastInDim S1x1 ![1] bcast_S1_S1x1_1 (m ((c.tc : Thread nD τ).loc main_arg5))) := by
  show after opsE (R9 m c) (Proc.devRef .tc main_v69) = _
  rw [opsE_v69, r9_v60, r9_arg5] <;> rfl

/-- The reference's result as a function of the launch memory. -/
abbrev result (c : Dev nD) : Buf (Elt Ideal) ((c.tc : Thread nD τ).loc main_v69) :=
  Sigmoid2.whole (Glue.aggregate1 (Dense2.whole (Relu1.whole (Glue.aggregate64 (Dense1.whole (m ((c.tc : Thread nD τ).loc main_arg0)) (m ((c.tc : Thread nD τ).loc main_arg2))) (Glue.sources (m ((c.tc : Thread nD τ).loc main_arg1))) (Glue.targets (m ((c.tc : Thread nD τ).loc main_arg1))) (Glue.edgeWeight (Glue.sources (m ((c.tc : Thread nD τ).loc main_arg1))) (Glue.targets (m ((c.tc : Thread nD τ).loc main_arg1))))) (broadcastInDim S1x64 ![1] bcast_S64_S1x64_1 (m ((c.tc : Thread nD τ).loc main_arg3)))) (m ((c.tc : Thread nD τ).loc main_arg4))) (Glue.sources (m ((c.tc : Thread nD τ).loc main_arg1))) (Glue.targets (m ((c.tc : Thread nD τ).loc main_arg1))) (Glue.edgeWeight (Glue.sources (m ((c.tc : Thread nD τ).loc main_arg1))) (Glue.targets (m ((c.tc : Thread nD τ).loc main_arg1))))) (broadcastInDim S1x1 ![1] bcast_S1_S1x1_1 (m ((c.tc : Thread nD τ).loc main_arg5)))

/-- The fold of the ninety operations at the result buffer is `result`. -/
theorem ops_result (c : Dev nD) : after (RefRun.ops (F := Ideal)) (launchContents m c) (Proc.devRef .tc main_v69) = result m c := by
  rw [RefRun.ops_split]
  simp only [StableHlo.after_append]
  exact r10_v69 m c

/-- Every weakly fair execution of the idealized reference terminates with the result array at `result` and the
    arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v69) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (ops_result m c), (h c).2⟩) (RefRun.run (F := Ideal) m ρ)

end Cert.Gcn.RefValue

end
-- ==== Proof.Bridge.lean ====
/-
  The two programs compute one function. Both results are the same composition of the same named steps of the argument
  arrays; the only difference left in the spelling is how the bias vector becomes a one-row matrix: the kernel program
  reshapes [n] to [1, n], the reference broadcasts it along a new leading axis. Entry (0, q) of either is entry q of the
  vector, so they are the same array, and with arguments that agree the two results are equal.
-/
import proofs.«117024_j566935683372_1_alg».proof.Proof.KernelValue
import proofs.«117024_j566935683372_1_alg».proof.Proof.RefValue

set_option maxRecDepth 16384

noncomputable section

namespace Cert.Gcn.Bridge

open Idealize.ShloMosaic Idealize.ShloMosaic.TcCoe Idealize.SL.Sem

/-- A 64-vector reshaped to one row is the vector broadcast along a new leading axis. -/
theorem biasRow64 (b : FVec Ideal Cert.KernelIdeal.S64 .f32) :
    shapeCast Cert.KernelIdeal.S1x64 b Cert.KernelIdeal.Gen.shapeCasts_S64_S1x64 = broadcastInDim Cert.ReferenceIdeal.S1x64 ![1] Cert.ReferenceIdeal.Gen.bcast_S64_S1x64_1 b := by
  funext j
  refine (shapeCast_addUnit_apply ![64] b _ j).trans ?_
  refine (broadcastInDim_apply ![1] _ b j (fun a => j a.succ) (fun a => ?_)).symm
  match a with
  | ⟨0, _⟩ => rfl

/-- A 1-vector reshaped to one row is the vector broadcast along a new leading axis. -/
theorem biasRow1 (b : FVec Ideal Cert.KernelIdeal.S1 .f32) :
    shapeCast Cert.KernelIdeal.S1x1 b Cert.KernelIdeal.Gen.shapeCasts_S1_S1x1 = broadcastInDim Cert.ReferenceIdeal.S1x1 ![1] Cert.ReferenceIdeal.Gen.bcast_S1_S1x1_1 b := by
  funext j
  refine (shapeCast_addUnit_apply ![1] b _ j).trans ?_
  refine (broadcastInDim_apply ![1] _ b j (fun a => j a.succ) (fun a => ?_)).symm
  match a with
  | ⟨0, _⟩ =>
    have h : (j 1).val < 1 := (j 1).isLt
    show (j 1).val = 0
    omega

/-- From memories that agree on the six arguments, the reference's result is the kernel program's. -/
theorem result_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    RefValue.result m' c = KernelValue.result m c := by
  unfold RefValue.result KernelValue.result
  rw [h0, h1, h2, h3, h4, h5, biasRow64, biasRow1]

end Cert.Gcn.Bridge

end
-- ==== Proof.lean ====
/-
  A two-layer graph convolution — dense product, aggregation over the edges with symmetric degree normalization and self
  loops, bias, activation; relu after the first layer and sigmoid after the second — computed two ways: by a program whose
  dense products and bias-and-activation steps are four pipelined kernels over row blocks of 10000 nodes, and by a plain
  reference that does everything as whole-array host operations. On the extended reals the two are the same function of the
  arguments:
   * a row block's matrix product accumulated into zero (the bf16 casts being the identity) and the whole product have the
     same sum over the contracted axis at every entry (Proof/DotSums, Proof/Dense1, Proof/Dense2);
   * bias and activation are entry by entry, the same bias row for every block, and the logistic function IS
     1 / (1 + exp (−x)) with the ideal division (Proof/Relu1, Proof/Sigmoid2);
   * the host operations between the kernels — edge list, degrees, weights, the two aggregations — are the reference's own,
     read once as named functions (Proof/Glue) from each program's run (Proof/KernelRun, Proof/KernelValue, Proof/RefRun,
     Proof/RefValue);
   * a bias vector reshaped to one row is the vector broadcast along a new leading axis (Proof/Bridge).
  No law used needs finiteness: the precondition is never opened. The three frames are the programs' runs with the result
  dropped; the idealization rewrote no operation, so there is nothing to preserve.
-/
import proofs.«117024_j566935683372_1_alg».proof.Defs
import proofs.«117024_j566935683372_1_alg».proof.Proof.Gen.Kernel
import proofs.«117024_j566935683372_1_alg».proof.Proof.Gen.Kernel.Skeleton
import proofs.«117024_j566935683372_1_alg».proof.Proof.Gen.Kernel.Launch
import proofs.«117024_j566935683372_1_alg».proof.Proof.Gen.Kernel.Points
import proofs.«117024_j566935683372_1_alg».proof.Proof.Gen.Kernel.Frame
import proofs.«117024_j566935683372_1_alg».proof.Proof.Gen.KernelIdeal
import proofs.«117024_j566935683372_1_alg».proof.Proof.Gen.KernelIdeal.Skeleton
import proofs.«117024_j566935683372_1_alg».proof.Proof.Gen.KernelIdeal.Launch
import proofs.«117024_j566935683372_1_alg».proof.Proof.Gen.KernelIdeal.Points
import proofs.«117024_j566935683372_1_alg».proof.Proof.Gen.KernelIdeal.Frame
import proofs.«117024_j566935683372_1_alg».proof.Proof.Gen.ReferenceIdeal
import proofs.«117024_j566935683372_1_alg».proof.Proof.Gen.Pre_finite_inputs
import proofs.«117024_j566935683372_1_alg».proof.Proof.KernelValue
import proofs.«117024_j566935683372_1_alg».proof.Proof.RefValue
import proofs.«117024_j566935683372_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.Gcn.RefValue.run m ρ)

/-- From memories agreeing on the arguments both idealized programs run, and end with equal results. -/
theorem algebraic : Cert.algebraic_KernelIdeal_ReferenceIdeal := by
  intro m ρ m' ρ' _ hagree
  refine ⟨fun c => Cert.Gcn.KernelValue.result m c, Cert.Gcn.KernelValue.run m ρ, ?_⟩
  refine (θ_run Cert.ReferenceIdeal.defs _ _).mono (fun _ h c => ⟨(h c).1.trans ?_, (h c).2⟩) (Cert.Gcn.RefValue.run m' ρ')
  obtain ⟨h0, h1, h2, h3, h4, h5⟩ := hagree c
  exact Cert.Gcn.Bridge.result_eq m m' c h0 h1 h2 h3 h4 h5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
